-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3072 : Shape := ⟨2, ![256, 3072]⟩
abbrev S256 : Shape := ⟨1, ![256]⟩
abbrev S16384x3072 : Shape := ⟨2, ![16384, 3072]⟩
abbrev S_ : Shape := ⟨0, ![]⟩

class Facts : Prop where
  bcast_S_S256x3072 : S_.BroadcastsInDim S256x3072 (![] : Fin 0 → Fin S256x3072.rank)
  reducesTo_S256x3072_S_d0_1 : S256x3072.ReducesTo [0, 1] S_
  h_S_ : 0 < S_.numel
  bcast_S_S16384x3072 : S_.BroadcastsInDim S16384x3072 (![] : Fin 0 → Fin S16384x3072.rank)
  reducesTo_S16384x3072_S_d0_1 : S16384x3072.ReducesTo [0, 1] S_

variable [Facts]

def fn {F : FTy → Type} [FloatOps F] (main_arg0 : FVec F S256x3072 .f32) (main_arg1 : IVec S256 32) (main_arg2 : FVec F S16384x3072 .f32) : IVec S_ 1 :=
  let main_v0 : FVec F S256x3072 .f32 := Host.absf main_arg0
  let main_cst : FVec F S_ .f32 := constant S_ .f32 0x7F800000#32
  let main_v1 : FVec F S256x3072 .f32 := broadcastInDim S256x3072 ![] bcast_S_S256x3072 main_cst
  let main_v2 : IVec S256x3072 1 := cmpf .olt main_v0 main_v1
  let main_c : IVec S_ 1 := constantI S_ 1 1#1
  let main_v3 : IVec S_ 1 := (fun x v => Host.reduce IntOp.andi x v reducesTo_S256x3072_S_d0_1 h_S_) main_v2 main_c
  let main_v4 : FVec F S16384x3072 .f32 := Host.absf main_arg2
  let main_cst_0 : FVec F S_ .f32 := constant S_ .f32 0x7F800000#32
  let main_v5 : FVec F S16384x3072 .f32 := broadcastInDim S16384x3072 ![] bcast_S_S16384x3072 main_cst_0
  let main_v6 : IVec S16384x3072 1 := cmpf .olt main_v4 main_v5
  let main_c_1 : IVec S_ 1 := constantI S_ 1 1#1
  let main_v7 : IVec S_ 1 := (fun x v => Host.reduce IntOp.andi x v reducesTo_S16384x3072_S_d0_1 h_S_) main_v6 main_c_1
  let main_v8 : IVec S_ 1 := andi main_v3 main_v7
  main_v8
-- ==== Kernel.lean ====
abbrev S256x3072 : Shape := ⟨2, ![256, 3072]⟩
abbrev S256 : Shape := ⟨1, ![256]⟩
abbrev S16384x3072 : Shape := ⟨2, ![16384, 3072]⟩
abbrev S_ : Shape := ⟨0, ![]⟩
abbrev S256x1 : Shape := ⟨2, ![256, 1]⟩
abbrev S128x1 : Shape := ⟨2, ![128, 1]⟩
abbrev S128x3072 : Shape := ⟨2, ![128, 3072]⟩
abbrev S512x3072 : Shape := ⟨2, ![512, 3072]⟩
abbrev S128x512 : Shape := ⟨2, ![128, 512]⟩
abbrev S128 : Shape := ⟨1, ![128]⟩
abbrev S512 : Shape := ⟨1, ![512]⟩
abbrev S1x512 : Shape := ⟨2, ![1, 512]⟩

abbrev nBuf : Space → Nat
  | .hbm => 39
  | .vmem => 15
  | .smem => 0
  | _ => 0

abbrev bufTy : (tb : Table) → Fin (tcTables nBuf tb) → BufTy
  | .hbm, ⟨0, _⟩ => ⟨S256x3072, .f32⟩
  | .hbm, ⟨1, _⟩ => ⟨S256, .i32⟩
  | .hbm, ⟨2, _⟩ => ⟨S16384x3072, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256x1, .f32⟩
  | .hbm, ⟨36, _⟩ => ⟨S256x1, .f32⟩
  | .hbm, ⟨37, _⟩ => ⟨S256x1, .f32⟩
  | .hbm, ⟨38, _⟩ => ⟨S256x3072, .f32⟩
  | .local _ .vmem, ⟨0, _⟩ => ⟨S128x1, .f32⟩
  | .local _ .vmem, ⟨1, _⟩ => ⟨S128x1, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S128x3072, .f32⟩
  | .local _ .vmem, ⟨7, _⟩ => ⟨S128x3072, .f32⟩
  | .local _ .vmem, ⟨8, _⟩ => ⟨S512x3072, .f32⟩
  | .local _ .vmem, ⟨9, _⟩ => ⟨S512x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x1, .f32⟩
  | .local _ .vmem, ⟨14, _⟩ => ⟨S128x1, .f32⟩
  | _, _ => ⟨S256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_cst_5 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v67 : BitVec 1 := Scalar.cmpi .eq arg1 c31_i32
  let v68 : BitVec 32 := Scalar.extui v67
  let c0_i32_31 : BitVec 32 := 0#32
  let v69 : BitVec 1 := Scalar.cmpi .ne v68 c0_i32_31
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S256 : S_.BroadcastsInDim S256 (![] : Fin 0 → Fin S256.rank)
  shapeCasts_S256_S256x1 : S256.ShapeCasts S256x1
  inb_S128x3072_S128x3072_0_0 : ∀ a, (![0, 0] : Fin 2 → Nat) a + S128x3072.size a ≤ S128x3072.size a
  h_S128x3072 : 0 < S128x3072.numel
  shapeCasts_S128x3072_S128x3072 : S128x3072.ShapeCasts S128x3072
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S512x3072_S512x3072_0_0 : ∀ a, (![0, 0] : Fin 2 → Nat) a + S512x3072.size a ≤ S512x3072.size a
  h_S512x3072 : 0 < S512x3072.numel
  reduces_S128x3072_S128 : S128x3072.Reduces [1] S128
  shapeCasts_S128_S128x1 : S128.ShapeCasts S128x1
  reduces_S512x3072_S512 : S512x3072.Reduces [1] S512
  shapeCasts_S512_S1x512 : S512.ShapeCasts S1x512
  broadcasts_S128x1_S128x512 : S128x1.Broadcasts S128x512
  broadcasts_S1x512_S128x512 : S1x512.Broadcasts S128x512
  reduces_S128x512_S128 : S128x512.Reduces [1] S128
  broadcasts_S128x1_S128x3072 : S128x1.Broadcasts S128x3072
  dot_S128x3072_S512x3072_S128x512_1_1_0_0_n_n_wf : DotDims.WF S128x3072 S512x3072 S128x512 [1] [1] [0] [0] [] []
  dot_S128x512_S512x3072_S128x3072_1_0_0_1_n_n_wf : DotDims.WF S128x512 S512x3072 S128x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S256x1.size a
  hwx0_0 : ∀ i : grid0.Coords, EltTy.bits .f32 = 32 ∨ (Rect.block (s := S256x1) S128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S256x1.size a
  hwx0_1 : ∀ i : grid0.Coords, EltTy.bits .f32 = 32 ∨ (Rect.block (s := S256x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S256x1.size a
  hwx0_2 : ∀ i : grid0.Coords, EltTy.bits .f32 = 32 ∨ (Rect.block (s := S256x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x3072.size a ≤ S256x3072.size a
  hwx0_3 : ∀ i : grid0.Coords, EltTy.bits .f32 = 32 ∨ (Rect.block (s := S256x3072) S128x3072.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x3072.size a ≤ S16384x3072.size a
  hwx0_4 : ∀ i : grid0.Coords, EltTy.bits .f32 = 32 ∨ (Rect.block (s := S16384x3072) S512x3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x3072.size a ≤ S256x3072.size a
  hwx0_5 : ∀ i : grid0.Coords, EltTy.bits .f32 = 32 ∨ (Rect.block (s := S256x3072) S128x3072.size (cc0_transform_5 i) (hinb0_5 i)).WholeWords (EltTy.packing .f32)

variable [Facts₀]

def dot_S128x3072_S512x3072_S128x512_1_1_0_0_n_n : DotDims S128x3072 S512x3072 S128x512 where
  lhsContracting := [1]
  rhsContracting := [1]
  lhsNonContracting := [0]
  rhsNonContracting := [0]
  lhsBatch := []
  rhsBatch := []
  wf := dot_S128x3072_S512x3072_S128x512_1_1_0_0_n_n_wf
def dot_S128x512_S512x3072_S128x3072_1_0_0_1_n_n : DotDims S128x512 S512x3072 S128x3072 where
  lhsContracting := [1]
  rhsContracting := [0]
  lhsNonContracting := [0]
  rhsNonContracting := [1]
  lhsBatch := []
  rhsBatch := []
  wf := dot_S128x512_S512x3072_S128x3072_1_0_0_1_n_n_wf

abbrev win0_0 : Pipeline.Window sig grid0 :=
  Pipeline.Window.ofSpec (Memref.whole main_v19) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S128x3072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x3072.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x3072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S256x3072 : Shape := ⟨2, ![256, 3072]⟩
abbrev S256 : Shape := ⟨1, ![256]⟩
abbrev S16384x3072 : Shape := ⟨2, ![16384, 3072]⟩
abbrev S_ : Shape := ⟨0, ![]⟩
abbrev S16384 : Shape := ⟨1, ![16384]⟩
abbrev S256x16384 : Shape := ⟨2, ![256, 16384]⟩
abbrev S256x1 : Shape := ⟨2, ![256, 1]⟩
abbrev S1x16384 : Shape := ⟨2, ![1, 16384]⟩

abbrev nBuf : Space → Nat
  | .hbm => 94
  | .vmem => 0
  | .smem => 0
  | _ => 0

abbrev bufTy : (tb : Table) → Fin (tcTables nBuf tb) → BufTy
  | .hbm, ⟨0, _⟩ => ⟨S256x3072, .f32⟩
  | .hbm, ⟨1, _⟩ => ⟨S256, .i32⟩
  | .hbm, ⟨2, _⟩ => ⟨S16384x3072, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256x3072, .f32⟩
  | .hbm, ⟨36, _⟩ => ⟨S_, .f32⟩
  | .hbm, ⟨37, _⟩ => ⟨S256, .f32⟩
  | .hbm, ⟨38, _⟩ => ⟨S16384x3072, .f32⟩
  | .hbm, ⟨39, _⟩ => ⟨S_, .f32⟩
  | .hbm, ⟨40, _⟩ => ⟨S16384, .f32⟩
  | .hbm, ⟨41, _⟩ => ⟨S256x16384, .f32⟩
  | .hbm, ⟨42, _⟩ => ⟨S256x1, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S256x16384, .f32⟩
  | .hbm, ⟨48, _⟩ => ⟨S256x16384, .f32⟩
  | .hbm, ⟨49, _⟩ => ⟨S256x16384, .f32⟩
  | .hbm, ⟨50, _⟩ => ⟨S256x16384, .f32⟩
  | .hbm, ⟨51, _⟩ => ⟨S256x1, .f32⟩
  | .hbm, ⟨52, _⟩ => ⟨S1x16384, .f32⟩
  | .hbm, ⟨53, _⟩ => ⟨S256x16384, .f32⟩
  | .hbm, ⟨54, _⟩ => ⟨S256x16384, .f32⟩
  | .hbm, ⟨55, _⟩ => ⟨S256x16384, .f32⟩
  | .hbm, ⟨56, _⟩ => ⟨S256x16384, .f32⟩
  | .hbm, ⟨57, _⟩ => ⟨S256, .f32⟩
  | .hbm, ⟨58, _⟩ => ⟨S256x1, .f32⟩
  | .hbm, ⟨59, _⟩ => ⟨S_, .f32⟩
  | .hbm, ⟨60, _⟩ => ⟨S256x1, .f32⟩
  | .hbm, ⟨61, _⟩ => ⟨S256x1, .f32⟩
  | .hbm, ⟨62, _⟩ => ⟨S256x1, .f32⟩
  | .hbm, ⟨63, _⟩ => ⟨S_, .f32⟩
  | .hbm, ⟨64, _⟩ => ⟨S256x1, .f32⟩
  | .hbm, ⟨65, _⟩ => ⟨S256x1, .f32⟩
  | .hbm, ⟨66, _⟩ => ⟨S256x16384, .f32⟩
  | .hbm, ⟨67, _⟩ => ⟨S256x16384, .f32⟩
  | .hbm, ⟨68, _⟩ => ⟨S256x16384, .f32⟩
  | .hbm, ⟨69, _⟩ => ⟨S256x16384, .f32⟩
  | .hbm, ⟨70, _⟩ => ⟨S256x16384, .f32⟩
  | .hbm, ⟨71, _⟩ => ⟨S_, .f32⟩
  | .hbm, ⟨72, _⟩ => ⟨S256, .f32⟩
  | .hbm, ⟨73, _⟩ => ⟨S_, .f32⟩
  | .hbm, ⟨74, _⟩ => ⟨S256, .f32⟩
  | .hbm, ⟨75, _⟩ => ⟨S256, .f32⟩
  | .hbm, ⟨76, _⟩ => ⟨S256x1, .f32⟩
  | .hbm, ⟨77, _⟩ => ⟨S256x16384, .f32⟩
  | .hbm, ⟨78, _⟩ => ⟨S256x16384, .f32⟩
  | .hbm, ⟨79, _⟩ => ⟨S256x16384, .f32⟩
  | .hbm, ⟨80, _⟩ => ⟨S_, .f32⟩
  | .hbm, ⟨81, _⟩ => ⟨S256, .f32⟩
  | .hbm, ⟨82, _⟩ => ⟨S256x1, .f32⟩
  | .hbm, ⟨83, _⟩ => ⟨S256x16384, .f32⟩
  | .hbm, ⟨84, _⟩ => ⟨S256x16384, .f32⟩
  | .hbm, ⟨85, _⟩ => ⟨S256x3072, .f32⟩
  | .hbm, ⟨86, _⟩ => ⟨S256x1, .f32⟩
  | .hbm, ⟨87, _⟩ => ⟨S256x3072, .f32⟩
  | .hbm, ⟨88, _⟩ => ⟨S256x3072, .f32⟩
  | .hbm, ⟨89, _⟩ => ⟨S256x3072, .f32⟩
  | .hbm, ⟨90, _⟩ => ⟨S256, .f32⟩
  | .hbm, ⟨91, _⟩ => ⟨S256x1, .f32⟩
  | .hbm, ⟨92, _⟩ => ⟨S256x3072, .f32⟩
  | .hbm, ⟨93, _⟩ => ⟨S256x3072, .f32⟩
  | _, _ => ⟨S256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_cst_5 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]

class Facts₀ : Prop where
  bcast_S_S256 : S_.BroadcastsInDim S256 (![] : Fin 0 → Fin S256.rank)
  reducesTo_S256x3072_S256_d1 : S256x3072.ReducesTo [1] S256
  h_S_ : 0 < S_.numel
  reducesTo_S16384x3072_S16384_d1 : S16384x3072.ReducesTo [1] S16384
  bcast_S256_S256x1_0 : S256.BroadcastsInDim S256x1 (![0] : Fin 1 → Fin S256x1.rank)
  bcast_S_S256x1 : S_.BroadcastsInDim S256x1 (![] : Fin 0 → Fin S256x1.rank)
  bcast_S256x1_S256x16384_0_1 : S256x1.BroadcastsInDim S256x16384 (![0, 1] : Fin 2 → Fin S256x16384.rank)
  bcast_S16384_S1x16384_1 : S16384.BroadcastsInDim S1x16384 (![1] : Fin 1 → Fin S1x16384.rank)
  bcast_S1x16384_S256x16384_0_1 : S1x16384.BroadcastsInDim S256x16384 (![0, 1] : Fin 2 → Fin S256x16384.rank)
  reducesTo_S256x16384_S256_d1 : S256x16384.ReducesTo [1] S256
  bcast_S256x1_S256x3072_0_1 : S256x1.BroadcastsInDim S256x3072 (![0, 1] : Fin 2 → Fin S256x3072.rank)
  dot_S256x3072_S16384x3072_S256x16384_1_1_0_0_n_n_wf : DotDims.WF S256x3072 S16384x3072 S256x16384 [1] [1] [0] [0] [] []
  dot_S256x16384_S16384x3072_S256x3072_1_0_0_1_n_n_wf : DotDims.WF S256x16384 S16384x3072 S256x3072 [1] [0] [0] [1] [] []

variable [Facts₀]

def dot_S256x3072_S16384x3072_S256x16384_1_1_0_0_n_n : DotDims S256x3072 S16384x3072 S256x16384 where
  lhsContracting := [1]
  rhsContracting := [1]
  lhsNonContracting := [0]
  rhsNonContracting := [0]
  lhsBatch := []
  rhsBatch := []
  wf := dot_S256x3072_S16384x3072_S256x16384_1_1_0_0_n_n_wf
def dot_S256x16384_S16384x3072_S256x3072_1_0_0_1_n_n : DotDims S256x16384 S16384x3072 S256x3072 where
  lhsContracting := [1]
  rhsContracting := [0]
  lhsNonContracting := [0]
  rhsNonContracting := [1]
  lhsBatch := []
  rhsBatch := []
  wf := dot_S256x16384_S16384x3072_S256x3072_1_0_0_1_n_n_wf

class Facts : Prop extends Facts₀ where

variable [Facts]
-- ==== Proof.Spec.lean ====
/-
  What both programs compute, stated once and free of either program.

  For a query row `b`, a data row `n` and a feature `d`:
    dist b n   = |x_b|^2 - (2 * sqrt(alpha_b)) * <x_b, y_n> + alpha_b * |y_n|^2
    logit b n  = -( (D/2) * log(var_b) + (1/2 / var_b) * dist b n )
    out b d    = ( x_b d - sqrt(alpha_b) * sum_n softmax_n(logit b) * y_n d ) / sqrt(var_b)
  with softmax_n(l) = exp(l_n - max l) / sum_n' exp(l_n' - max l).

  One program evaluates the softmax-weighted sum in one pass over all data rows; the other keeps, block of 512
  data rows by block, a running maximum m, a running normaliser l and a running weighted sum a, and rescales l
  and a by exp(m_old - m_new) whenever the maximum moves (`step`, `run`); its result is a / l after the last block.
  It also groups the quotient in the logit as (1/2 * dist) / var (`logitK`).
-/
import Idealize.ShloMosaic.PureOps.Ideal.Laws
import Idealize.ShloMosaic.Lib.ValueIdx

noncomputable section

namespace Cert.Spec

open Idealize.ShloMosaic Idealize.ShloMosaic.ValueIdx

/-- The scalars of the logit, as the binary words both programs carry: 2, D/2 = 1536 and 1/2. -/
abbrev two : EReal := Ideal.ofBits .f32 0x40000000#32
abbrev halfD : EReal := Ideal.ofBits .f32 0x44C00000#32
abbrev half : EReal := Ideal.ofBits .f32 0x3F000000#32
/-- The bounds of the clipped schedule value and the unit it is subtracted from. -/
abbrev lo : EReal := Ideal.ofBits .f32 0x3727C5AC#32
abbrev hi : EReal := Ideal.ofBits .f32 0x3F7FFF58#32
abbrev one : EReal := Ideal.ofBits .f32 0x3F800000#32

/-- The query array and the data array, as functions of a two-coordinate index. -/
abbrev Queries := (⟨2, ![256, 3072]⟩ : Shape).Idx → EReal
abbrev Data := (⟨2, ![16384, 3072]⟩ : Shape).Idx → EReal

/-- Squared norm of query row `b`. -/
def xsq (X : Queries) (b : Fin 256) : EReal := ∑ k : Fin 3072, X (ix2 b k) * X (ix2 b k)
/-- Squared norm of data row `n`. -/
def ysq (Y : Data) (n : Fin 16384) : EReal := ∑ k : Fin 3072, Y (ix2 n k) * Y (ix2 n k)
/-- Inner product of query row `b` and data row `n`. -/
def xy (X : Queries) (Y : Data) (b : Fin 256) (n : Fin 16384) : EReal := ∑ k : Fin 3072, X (ix2 b k) * Y (ix2 n k)

/-- The expanded squared distance between `x_b` and `sqrt(alpha) * y_n`. -/
def dist (al sa : EReal) (X : Queries) (Y : Data) (b : Fin 256) (n : Fin 16384) : EReal :=
  (xsq X b - (two * sa) * xy X Y b n) + al * ysq Y n

/-- The logit with the quotient grouped as `(1/2 / var) * dist`. -/
def logitR (al var sa : EReal) (X : Queries) (Y : Data) (b : Fin 256) (n : Fin 16384) : EReal :=
  -(halfD * Ideal.log var + Ideal.div half var * dist al sa X Y b n)

/-- The logit with the quotient grouped as `(1/2 * dist) / var`, and the sign change written `0 - _`. -/
def logitK (al var sa : EReal) (X : Queries) (Y : Data) (b : Fin 256) (n : Fin 16384) : EReal :=
  Ideal.ofBits .f32 0x00000000#32 - (halfD * Ideal.log var + Ideal.div (half * dist al sa X Y b n) var)

/-- The largest logit of a row. -/
def rowMax (lg : Fin 16384 → EReal) : EReal := (Finset.univ : Finset (Fin 16384)).fold max ⊥ lg

/-- The softmax-weighted sum of `y` under the logits `lg`, in one pass. -/
def wavg (lg y : Fin 16384 → EReal) : EReal :=
  ∑ n : Fin 16384, Ideal.div (Ideal.exp (lg n - rowMax lg)) (∑ n' : Fin 16384, Ideal.exp (lg n' - rowMax lg)) * y n

/-- The result at row `b`, feature `d`. -/
def out (al var sa : EReal) (X : Queries) (Y : Data) (b : Fin 256) (d : Fin 3072) : EReal :=
  Ideal.div (X (ix2 b d) - sa * wavg (fun n => logitR al var sa X Y b n) (fun n => Y (ix2 n d))) (Ideal.sqrt var)

/-- One block of the running softmax: from (maximum, normaliser, weighted sum) and a block's logits `lb` and
    data values `yb` to the next triple. -/
def step (s : EReal × EReal × EReal) (lb yb : Fin 512 → EReal) : EReal × EReal × EReal :=
  (max s.1 ((Finset.univ : Finset (Fin 512)).fold max ⊥ lb),
   Ideal.exp (s.1 - max s.1 ((Finset.univ : Finset (Fin 512)).fold max ⊥ lb)) * s.2.1
     + ∑ c : Fin 512, Ideal.exp (lb c - max s.1 ((Finset.univ : Finset (Fin 512)).fold max ⊥ lb)),
   Ideal.exp (s.1 - max s.1 ((Finset.univ : Finset (Fin 512)).fold max ⊥ lb)) * s.2.2
     + ∑ c : Fin 512, Ideal.exp (lb c - max s.1 ((Finset.univ : Finset (Fin 512)).fold max ⊥ lb)) * yb c)

/-- Block `k` of a sequence: entries `512 k .. 512 k + 511`. -/
def blk (f : ℕ → EReal) (k : ℕ) : Fin 512 → EReal := fun c => f (512 * k + c.val)

/-- The triple after blocks `0 .. k`, started from (-inf, 0, 0). -/
def run (lg y : ℕ → EReal) : ℕ → EReal × EReal × EReal
  | 0 => step (⊥, 0, 0) (blk lg 0) (blk y 0)
  | k + 1 => step (run lg y k) (blk lg (k + 1)) (blk y (k + 1))

end Cert.Spec

end
-- ==== Proof.Rows.lean ====
/-
  A row's logits and a feature's data values as sequences indexed by the natural numbers (zero past the
  last data row), the form in which the running softmax consumes them block by block.
-/
import proofs.«149353_j90323162235656_2_alg».proof.Proof.Spec

noncomputable section

namespace Cert.Rows

open Idealize.ShloMosaic Idealize.ShloMosaic.ValueIdx Cert.Spec

/-- The logits of query row `b` against data rows 0, 1, 2, …, with the quotient grouped as the blockwise program groups it. -/
def lgN (al var sa : EReal) (X : Queries) (Y : Data) (b : Fin 256) : ℕ → EReal :=
  fun n => if h : n < 16384 then logitK al var sa X Y b ⟨n, h⟩ else 0

/-- Feature `d` of data rows 0, 1, 2, …. -/
def yN (Y : Data) (d : Fin 3072) : ℕ → EReal :=
  fun n => if h : n < 16384 then Y (ix2 ⟨n, h⟩ d) else 0

end Cert.Rows

end
-- ==== Proof.Pieces.lean ====
/-
  What each control case of the body leaves in the three buffers it carries from one grid point to the next
  (the weighted sum, the maximum, the normaliser) and, in the last case, in the output block: each is one
  whole-buffer store, so the buffer ends at that store's value — a pure term of the blocks the body loaded
  and of what the previous point left. At the first block of a row the three buffers are first reset
  (to 0, -inf, 0) and the update then reads the reset values back.
-/
import proofs.«149353_j90323162235656_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- A store at offset (0, 0) of the whole extent is a store of the whole buffer. -/
theorem hz2 : (![0, 0] : Fin 2 → Nat) = fun _ => 0 := funext fun a => by
  match a with
  | ⟨0, _⟩ => rfl
  | ⟨1, _⟩ => rfl

theorem sout0_A_0_eq (c : Dev nD) (i : grid0.Coords) (arg2 : Memref sig .tc .vmem S128x1 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x3072 .f32) (harg5 : arg5.IsWhole) (arg6 : Memref sig .tc .vmem S512x3072 .f32) (harg6 : arg6.IsWhole) (arg7 : Memref sig .tc .vmem S128x3072 .f32) (harg7 : arg7.IsWhole) (arg8 : Memref sig .tc .vmem S128x3072 .f32) (harg8 : arg8.IsWhole) (arg9 : Memref sig .tc .vmem S128x1 .f32) (harg9 : arg9.IsWhole) (arg10 : Memref sig .tc .vmem S128x1 .f32) (harg10 : arg10.IsWhole) (hc0 : cond0_0 i) (hc1 : ¬cond0_1 i)
    (x0 x1 x2 : Vec F S128x1 .f32) (x3 : Vec F S128x3072 .f32) (x4 : Vec F S512x3072 .f32) :
    sout0_A_0 c i arg2 harg2 arg3 harg3 arg4 harg4 arg5 harg5 arg6 harg6 arg7 harg7 arg8 harg8 arg9 harg9 arg10 harg10 hc0 hc1 x0 x1 x2 x3 x4
      = k0_pay6 x4 (k0_pay12 x3 x4 x0 x1 x2) k0_pay13 k0_pay10 k0_pay9 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  first
    | rw [View.canon_unit_zero hz2]
    | rw [View.canon_cons_unit_zero hz2]
  simp only [View.readAt_eq_ld, Memref.IsWhole.read_unread, View.readCov_unit_zero (S := S128x1) _ hz2, View.readCov_unit_zero (S := S128x3072) _ hz2, View.ld_unit_zero (S := S128x1) hz2, View.ld_unit_zero (S := S128x3072) hz2, View.ld_unit_zero (S := S512x3072) hz2]

theorem sout0_A_1_eq (c : Dev nD) (i : grid0.Coords) (arg2 : Memref sig .tc .vmem S128x1 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x3072 .f32) (harg5 : arg5.IsWhole) (arg6 : Memref sig .tc .vmem S512x3072 .f32) (harg6 : arg6.IsWhole) (arg7 : Memref sig .tc .vmem S128x3072 .f32) (harg7 : arg7.IsWhole) (arg8 : Memref sig .tc .vmem S128x3072 .f32) (harg8 : arg8.IsWhole) (arg9 : Memref sig .tc .vmem S128x1 .f32) (harg9 : arg9.IsWhole) (arg10 : Memref sig .tc .vmem S128x1 .f32) (harg10 : arg10.IsWhole) (hc0 : cond0_0 i) (hc1 : ¬cond0_1 i)
    (x0 x1 x2 : Vec F S128x1 .f32) (x3 : Vec F S128x3072 .f32) (x4 : Vec F S512x3072 .f32) :
    sout0_A_1 c i arg2 harg2 arg3 harg3 arg4 harg4 arg5 harg5 arg6 harg6 arg7 harg7 arg8 harg8 arg9 harg9 arg10 harg10 hc0 hc1 x0 x1 x2 x3 x4
      = k0_pay7 (k0_pay12 x3 x4 x0 x1 x2) k0_pay13 k0_pay10 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  first
    | rw [View.canon_unit_zero hz2]
    | rw [View.canon_cons_unit_zero hz2]
  simp only [View.readAt_eq_ld, Memref.IsWhole.read_unread, View.readCov_unit_zero (S := S128x1) _ hz2, View.readCov_unit_zero (S := S128x3072) _ hz2, View.ld_unit_zero (S := S128x1) hz2, View.ld_unit_zero (S := S128x3072) hz2, View.ld_unit_zero (S := S512x3072) hz2]

theorem sout0_A_2_eq (c : Dev nD) (i : grid0.Coords) (arg2 : Memref sig .tc .vmem S128x1 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x3072 .f32) (harg5 : arg5.IsWhole) (arg6 : Memref sig .tc .vmem S512x3072 .f32) (harg6 : arg6.IsWhole) (arg7 : Memref sig .tc .vmem S128x3072 .f32) (harg7 : arg7.IsWhole) (arg8 : Memref sig .tc .vmem S128x3072 .f32) (harg8 : arg8.IsWhole) (arg9 : Memref sig .tc .vmem S128x1 .f32) (harg9 : arg9.IsWhole) (arg10 : Memref sig .tc .vmem S128x1 .f32) (harg10 : arg10.IsWhole) (hc0 : cond0_0 i) (hc1 : ¬cond0_1 i)
    (x0 x1 x2 : Vec F S128x1 .f32) (x3 : Vec F S128x3072 .f32) (x4 : Vec F S512x3072 .f32) :
    sout0_A_2 c i arg2 harg2 arg3 harg3 arg4 harg4 arg5 harg5 arg6 harg6 arg7 harg7 arg8 harg8 arg9 harg9 arg10 harg10 hc0 hc1 x0 x1 x2 x3 x4
      = k0_pay5 (k0_pay12 x3 x4 x0 x1 x2) k0_pay13 k0_pay10 k0_pay11 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  first
    | rw [View.canon_unit_zero hz2]
    | rw [View.canon_cons_unit_zero hz2]
  simp only [View.readAt_eq_ld, Memref.IsWhole.read_unread, View.readCov_unit_zero (S := S128x1) _ hz2, View.readCov_unit_zero (S := S128x3072) _ hz2, View.ld_unit_zero (S := S128x1) hz2, View.ld_unit_zero (S := S128x3072) hz2, View.ld_unit_zero (S := S512x3072) hz2]

theorem sout0_B_0_eq (c : Dev nD) (i : grid0.Coords) (arg2 : Memref sig .tc .vmem S128x1 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x3072 .f32) (harg5 : arg5.IsWhole) (arg6 : Memref sig .tc .vmem S512x3072 .f32) (harg6 : arg6.IsWhole) (arg7 : Memref sig .tc .vmem S128x3072 .f32) (harg7 : arg7.IsWhole) (arg8 : Memref sig .tc .vmem S128x3072 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : ¬cond0_1 i)
    (x0 x1 x2 : Vec F S128x1 .f32) (x3 : Vec F S128x3072 .f32) (x4 : Vec F S512x3072 .f32) (xs0 : Vec F S128x3072 .f32) (xs1 xs2 : Vec F S128x1 .f32) :
    sout0_B_0 c i arg2 harg2 arg3 harg3 arg4 harg4 arg5 harg5 arg6 harg6 arg7 harg7 arg8 harg8 arg9 harg9 arg10 harg10 hc0 hc1 x0 x1 x2 x3 x4 xs0 xs1 xs2
      = k0_pay6 x4 (k0_pay12 x3 x4 x0 x1 x2) k0_pay13 xs1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  first
    | rw [View.canon_unit_zero hz2]
    | rw [View.canon_cons_unit_zero hz2]
  simp only [View.readAt_eq_ld, Memref.IsWhole.read_unread, View.readCov_unit_zero (S := S128x1) _ hz2, View.readCov_unit_zero (S := S128x3072) _ hz2, View.ld_unit_zero (S := S128x1) hz2, View.ld_unit_zero (S := S128x3072) hz2, View.ld_unit_zero (S := S512x3072) hz2]

theorem sout0_B_1_eq (c : Dev nD) (i : grid0.Coords) (arg2 : Memref sig .tc .vmem S128x1 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x3072 .f32) (harg5 : arg5.IsWhole) (arg6 : Memref sig .tc .vmem S512x3072 .f32) (harg6 : arg6.IsWhole) (arg7 : Memref sig .tc .vmem S128x3072 .f32) (harg7 : arg7.IsWhole) (arg8 : Memref sig .tc .vmem S128x3072 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : ¬cond0_1 i)
    (x0 x1 x2 : Vec F S128x1 .f32) (x3 : Vec F S128x3072 .f32) (x4 : Vec F S512x3072 .f32) (xs0 : Vec F S128x3072 .f32) (xs1 xs2 : Vec F S128x1 .f32) :
    sout0_B_1 c i arg2 harg2 arg3 harg3 arg4 harg4 arg5 harg5 arg6 harg6 arg7 harg7 arg8 harg8 arg9 harg9 arg10 harg10 hc0 hc1 x0 x1 x2 x3 x4 xs0 xs1 xs2
      = k0_pay7 (k0_pay12 x3 x4 x0 x1 x2) k0_pay13 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  first
    | rw [View.canon_unit_zero hz2]
    | rw [View.canon_cons_unit_zero hz2]
  simp only [View.readAt_eq_ld, Memref.IsWhole.read_unread, View.readCov_unit_zero (S := S128x1) _ hz2, View.readCov_unit_zero (S := S128x3072) _ hz2, View.ld_unit_zero (S := S128x1) hz2, View.ld_unit_zero (S := S128x3072) hz2, View.ld_unit_zero (S := S512x3072) hz2]

theorem sout0_B_2_eq (c : Dev nD) (i : grid0.Coords) (arg2 : Memref sig .tc .vmem S128x1 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x3072 .f32) (harg5 : arg5.IsWhole) (arg6 : Memref sig .tc .vmem S512x3072 .f32) (harg6 : arg6.IsWhole) (arg7 : Memref sig .tc .vmem S128x3072 .f32) (harg7 : arg7.IsWhole) (arg8 : Memref sig .tc .vmem S128x3072 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : ¬cond0_1 i)
    (x0 x1 x2 : Vec F S128x1 .f32) (x3 : Vec F S128x3072 .f32) (x4 : Vec F S512x3072 .f32) (xs0 : Vec F S128x3072 .f32) (xs1 xs2 : Vec F S128x1 .f32) :
    sout0_B_2 c i arg2 harg2 arg3 harg3 arg4 harg4 arg5 harg5 arg6 harg6 arg7 harg7 arg8 harg8 arg9 harg9 arg10 harg10 hc0 hc1 x0 x1 x2 x3 x4 xs0 xs1 xs2
      = k0_pay5 (k0_pay12 x3 x4 x0 x1 x2) k0_pay13 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  first
    | rw [View.canon_unit_zero hz2]
    | rw [View.canon_cons_unit_zero hz2]
  simp only [View.readAt_eq_ld, Memref.IsWhole.read_unread, View.readCov_unit_zero (S := S128x1) _ hz2, View.readCov_unit_zero (S := S128x3072) _ hz2, View.ld_unit_zero (S := S128x1) hz2, View.ld_unit_zero (S := S128x3072) hz2, View.ld_unit_zero (S := S512x3072) hz2]

theorem sout0_C_0_eq (c : Dev nD) (i : grid0.Coords) (arg2 : Memref sig .tc .vmem S128x1 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x3072 .f32) (harg5 : arg5.IsWhole) (arg6 : Memref sig .tc .vmem S512x3072 .f32) (harg6 : arg6.IsWhole) (arg7 : Memref sig .tc .vmem S128x3072 .f32) (harg7 : arg7.IsWhole) (arg8 : Memref sig .tc .vmem S128x3072 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : cond0_1 i)
    (x0 x1 x2 : Vec F S128x1 .f32) (x3 : Vec F S128x3072 .f32) (x4 : Vec F S512x3072 .f32) (xs0 : Vec F S128x3072 .f32) (xs1 xs2 : Vec F S128x1 .f32) :
    sout0_C_0 c i arg2 harg2 arg3 harg3 arg4 harg4 arg5 harg5 arg6 harg6 arg7 harg7 arg8 harg8 arg9 harg9 arg10 harg10 hc0 hc1 x0 x1 x2 x3 x4 xs0 xs1 xs2
      = k0_pay6 x4 (k0_pay12 x3 x4 x0 x1 x2) k0_pay13 xs1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  first
    | rw [View.canon_unit_zero hz2]
    | rw [View.canon_cons_unit_zero hz2]
  simp only [View.readAt_eq_ld, Memref.IsWhole.read_unread, View.readCov_unit_zero (S := S128x1) _ hz2, View.readCov_unit_zero (S := S128x3072) _ hz2, View.ld_unit_zero (S := S128x1) hz2, View.ld_unit_zero (S := S128x3072) hz2, View.ld_unit_zero (S := S512x3072) hz2]

theorem sout0_C_1_eq (c : Dev nD) (i : grid0.Coords) (arg2 : Memref sig .tc .vmem S128x1 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x3072 .f32) (harg5 : arg5.IsWhole) (arg6 : Memref sig .tc .vmem S512x3072 .f32) (harg6 : arg6.IsWhole) (arg7 : Memref sig .tc .vmem S128x3072 .f32) (harg7 : arg7.IsWhole) (arg8 : Memref sig .tc .vmem S128x3072 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : cond0_1 i)
    (x0 x1 x2 : Vec F S128x1 .f32) (x3 : Vec F S128x3072 .f32) (x4 : Vec F S512x3072 .f32) (xs0 : Vec F S128x3072 .f32) (xs1 xs2 : Vec F S128x1 .f32) :
    sout0_C_1 c i arg2 harg2 arg3 harg3 arg4 harg4 arg5 harg5 arg6 harg6 arg7 harg7 arg8 harg8 arg9 harg9 arg10 harg10 hc0 hc1 x0 x1 x2 x3 x4 xs0 xs1 xs2
      = k0_pay7 (k0_pay12 x3 x4 x0 x1 x2) k0_pay13 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  first
    | rw [View.canon_unit_zero hz2]
    | rw [View.canon_cons_unit_zero hz2]
  simp only [View.readAt_eq_ld, Memref.IsWhole.read_unread, View.readCov_unit_zero (S := S128x1) _ hz2, View.readCov_unit_zero (S := S128x3072) _ hz2, View.ld_unit_zero (S := S128x1) hz2, View.ld_unit_zero (S := S128x3072) hz2, View.ld_unit_zero (S := S512x3072) hz2]

theorem sout0_C_2_eq (c : Dev nD) (i : grid0.Coords) (arg2 : Memref sig .tc .vmem S128x1 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x3072 .f32) (harg5 : arg5.IsWhole) (arg6 : Memref sig .tc .vmem S512x3072 .f32) (harg6 : arg6.IsWhole) (arg7 : Memref sig .tc .vmem S128x3072 .f32) (harg7 : arg7.IsWhole) (arg8 : Memref sig .tc .vmem S128x3072 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : cond0_1 i)
    (x0 x1 x2 : Vec F S128x1 .f32) (x3 : Vec F S128x3072 .f32) (x4 : Vec F S512x3072 .f32) (xs0 : Vec F S128x3072 .f32) (xs1 xs2 : Vec F S128x1 .f32) :
    sout0_C_2 c i arg2 harg2 arg3 harg3 arg4 harg4 arg5 harg5 arg6 harg6 arg7 harg7 arg8 harg8 arg9 harg9 arg10 harg10 hc0 hc1 x0 x1 x2 x3 x4 xs0 xs1 xs2
      = k0_pay5 (k0_pay12 x3 x4 x0 x1 x2) k0_pay13 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  first
    | rw [View.canon_unit_zero hz2]
    | rw [View.canon_cons_unit_zero hz2]
  simp only [View.readAt_eq_ld, Memref.IsWhole.read_unread, View.readCov_unit_zero (S := S128x1) _ hz2, View.readCov_unit_zero (S := S128x3072) _ hz2, View.ld_unit_zero (S := S128x1) hz2, View.ld_unit_zero (S := S128x3072) hz2, View.ld_unit_zero (S := S512x3072) hz2]

theorem out0_C_5_eq (c : Dev nD) (i : grid0.Coords) (arg2 : Memref sig .tc .vmem S128x1 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S128x3072 .f32) (harg5 : arg5.IsWhole) (arg6 : Memref sig .tc .vmem S512x3072 .f32) (harg6 : arg6.IsWhole) (arg7 : Memref sig .tc .vmem S128x3072 .f32) (harg7 : arg7.IsWhole) (arg8 : Memref sig .tc .vmem S128x3072 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : cond0_1 i)
    (x0 x1 x2 : Vec F S128x1 .f32) (x3 : Vec F S128x3072 .f32) (x4 : Vec F S512x3072 .f32) (xs0 : Vec F S128x3072 .f32) (xs1 xs2 : Vec F S128x1 .f32) :
    out0_C_5 c i arg2 harg2 arg3 harg3 arg4 harg4 arg5 harg5 arg6 harg6 arg7 harg7 arg8 harg8 arg9 harg9 arg10 harg10 hc0 hc1 x0 x1 x2 x3 x4 xs0 xs1 xs2
      = k0_pay8 (k0_pay6 x4 (k0_pay12 x3 x4 x0 x1 x2) k0_pay13 xs1 xs0) (k0_pay5 (k0_pay12 x3 x4 x0 x1 x2) k0_pay13 xs1 xs2) x3 x2 x1 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  first
    | rw [View.canon_unit_zero hz2]
    | rw [View.canon_cons_unit_zero hz2]
  simp only [View.readAt_eq_ld, Memref.IsWhole.read_unread, View.readCov_unit_zero (S := S128x1) _ hz2, View.readCov_unit_zero (S := S128x3072) _ hz2, View.ld_unit_zero (S := S128x1) hz2, View.ld_unit_zero (S := S128x3072) hz2, View.ld_unit_zero (S := S512x3072) hz2]

end Cert.KernelIdeal.Pieces

end
-- ==== Proof.Blocks.lean ====
/-
  Which entries of the arrays each window's block holds at grid point t. The grid is 2 by 32 and t counts
  it row-major: the row block is t / 32 and the data block t % 32. The three schedule columns and the query
  array are cut into two blocks of 128 rows (block index t / 32), the data array into 32 blocks of 512 rows
  (block index t % 32); a block's local row r is the array's row 128 (t / 32) + r, or 512 (t % 32) + r.
-/
import proofs.«149353_j90323162235656_2_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

theorem idx0 : ∀ t : Fin cfg0.N, win0_0.index t (0 : Fin 2) = t.val / 32 ∧ win0_0.index t (1 : Fin 2) = 0 :=
  (by decide +kernel : ∀ t : Fin grid0.N, _)

/-- The schedule-value column's block at point `t` holds rows `128 (t / 32) ..` of the column. -/
theorem iblk0_at (c : Dev nD) (t : Fin cfg0.N) (r : Fin 128) (u : Fin 1) (hb : 128 * (t.val / 32) + r.val < 256) :
    (iblk m c 0 t : Vec F S128x1 .f32) (ix2 r u)
      = (V m c main_v19 : S256x1.Idx → Elt F .f32) (ix2 ⟨128 * (t.val / 32) + r.val, hb⟩ u) := by
  have hi := idx0 t
  unfold iblk
  rw [View.read_apply]
  show V m c main_v19 _ = _
  congr 1
  funext a
  apply Fin.ext
  match a with
  | ⟨0, _⟩ => show win0_0.index t 0 * 128 + 1 * r.val = 128 * (t.val / 32) + r.val; rw [hi.1]; omega
  | ⟨1, _⟩ => show win0_0.index t 1 * 1 + 1 * u.val = u.val; rw [hi.2]; omega

theorem idx1 : ∀ t : Fin cfg0.N, win0_1.index t (0 : Fin 2) = t.val / 32 ∧ win0_1.index t (1 : Fin 2) = 0 :=
  (by decide +kernel : ∀ t : Fin grid0.N, _)

/-- The variance column's block at point `t` holds rows `128 (t / 32) ..` of the column. -/
theorem iblk1_at (c : Dev nD) (t : Fin cfg0.N) (r : Fin 128) (u : Fin 1) (hb : 128 * (t.val / 32) + r.val < 256) :
    (iblk m c 1 t : Vec F S128x1 .f32) (ix2 r u)
      = (V m c main_v20 : S256x1.Idx → Elt F .f32) (ix2 ⟨128 * (t.val / 32) + r.val, hb⟩ u) := by
  have hi := idx1 t
  unfold iblk
  rw [View.read_apply]
  show V m c main_v20 _ = _
  congr 1
  funext a
  apply Fin.ext
  match a with
  | ⟨0, _⟩ => show win0_1.index t 0 * 128 + 1 * r.val = 128 * (t.val / 32) + r.val; rw [hi.1]; omega
  | ⟨1, _⟩ => show win0_1.index t 1 * 1 + 1 * u.val = u.val; rw [hi.2]; omega

theorem idx2 : ∀ t : Fin cfg0.N, win0_2.index t (0 : Fin 2) = t.val / 32 ∧ win0_2.index t (1 : Fin 2) = 0 :=
  (by decide +kernel : ∀ t : Fin grid0.N, _)

/-- The scale column's block at point `t` holds rows `128 (t / 32) ..` of the column. -/
theorem iblk2_at (c : Dev nD) (t : Fin cfg0.N) (r : Fin 128) (u : Fin 1) (hb : 128 * (t.val / 32) + r.val < 256) :
    (iblk m c 2 t : Vec F S128x1 .f32) (ix2 r u)
      = (V m c main_v21 : S256x1.Idx → Elt F .f32) (ix2 ⟨128 * (t.val / 32) + r.val, hb⟩ u) := by
  have hi := idx2 t
  unfold iblk
  rw [View.read_apply]
  show V m c main_v21 _ = _
  congr 1
  funext a
  apply Fin.ext
  match a with
  | ⟨0, _⟩ => show win0_2.index t 0 * 128 + 1 * r.val = 128 * (t.val / 32) + r.val; rw [hi.1]; omega
  | ⟨1, _⟩ => show win0_2.index t 1 * 1 + 1 * u.val = u.val; rw [hi.2]; omega

theorem idx3 : ∀ t : Fin cfg0.N, win0_3.index t (0 : Fin 2) = t.val / 32 ∧ win0_3.index t (1 : Fin 2) = 0 :=
  (by decide +kernel : ∀ t : Fin grid0.N, _)

/-- The query block at point `t` holds rows `128 (t / 32) ..` of the query array. -/
theorem iblk3_at (c : Dev nD) (t : Fin cfg0.N) (r : Fin 128) (k : Fin 3072) (hb : 128 * (t.val / 32) + r.val < 256) :
    (iblk m c 3 t : Vec F S128x3072 .f32) (ix2 r k)
      = (m ((c.tc : Thread nD τ).loc main_arg0) : S256x3072.Idx → Elt F .f32) (ix2 ⟨128 * (t.val / 32) + r.val, hb⟩ k) := by
  have hi := idx3 t
  unfold iblk
  rw [View.read_apply]
  show V m c main_arg0 _ = _
  rw [V_main_arg0]
  congr 1
  funext a
  apply Fin.ext
  match a with
  | ⟨0, _⟩ => show win0_3.index t 0 * 128 + 1 * r.val = 128 * (t.val / 32) + r.val; rw [hi.1]; omega
  | ⟨1, _⟩ => show win0_3.index t 1 * 3072 + 1 * k.val = k.val; rw [hi.2]; omega

theorem idx4 : ∀ t : Fin cfg0.N, win0_4.index t (0 : Fin 2) = t.val % 32 ∧ win0_4.index t (1 : Fin 2) = 0 :=
  (by decide +kernel : ∀ t : Fin grid0.N, _)

/-- The data block at point `t` holds rows `512 (t % 32) ..` of the data array. -/
theorem iblk4_at (c : Dev nD) (t : Fin cfg0.N) (q : Fin 512) (k : Fin 3072) (hb : 512 * (t.val % 32) + q.val < 16384) :
    (iblk m c 4 t : Vec F S512x3072 .f32) (ix2 q k)
      = (m ((c.tc : Thread nD τ).loc main_arg2) : S16384x3072.Idx → Elt F .f32) (ix2 ⟨512 * (t.val % 32) + q.val, hb⟩ k) := by
  have hi := idx4 t
  unfold iblk
  rw [View.read_apply]
  show V m c main_arg2 _ = _
  rw [V_main_arg2]
  congr 1
  funext a
  apply Fin.ext
  match a with
  | ⟨0, _⟩ => show win0_4.index t 0 * 512 + 1 * q.val = 512 * (t.val % 32) + q.val; rw [hi.1]; omega
  | ⟨1, _⟩ => show win0_4.index t 1 * 3072 + 1 * k.val = k.val; rw [hi.2]; omega

end Cert.KernelIdeal.Blocks

end
-- ==== Proof.Cases.lean ====
/-
  The three control cases of the body as equations on what the carried buffers hold after grid point t, in terms
  of the five input blocks at t (named here at their literal shapes), the pre-logit block computed from them, and
  what the point before left. At t % 32 = 0 the buffers are reset and updated once; elsewhere they are updated
  from the previous point's contents; at t % 32 = 31 the output block is also stored.
-/
import proofs.«149353_j90323162235656_2_alg».proof.Proof.Gen.KernelIdeal.Frame
import proofs.«149353_j90323162235656_2_alg».proof.Proof.Pieces
import proofs.«149353_j90323162235656_2_alg».proof.Proof.Blocks

set_option maxRecDepth 16384

noncomputable section

namespace Cert.KernelIdeal.Cases

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The five input blocks at point `t`: the three schedule columns, the query block, the data block. -/
def B0 (c : Dev nD) (t : Fin cfg0.N) : Vec F S128x1 .f32 := iblk m c 0 t
def B1 (c : Dev nD) (t : Fin cfg0.N) : Vec F S128x1 .f32 := iblk m c 1 t
def B2 (c : Dev nD) (t : Fin cfg0.N) : Vec F S128x1 .f32 := iblk m c 2 t
def B3 (c : Dev nD) (t : Fin cfg0.N) : Vec F S128x3072 .f32 := iblk m c 3 t
def B4 (c : Dev nD) (t : Fin cfg0.N) : Vec F S512x3072 .f32 := iblk m c 4 t

/-- The pre-logit block the body computes at point `t`. -/
def PB (c : Dev nD) (t : Fin cfg0.N) : FVec F S128x512 .f32 :=
  k0_pay12 (B3 m c t) (B4 m c t) (B0 m c t) (B1 m c t) (B2 m c t)

theorem B0_at (c : Dev nD) (t : Fin cfg0.N) (r : Fin 128) (u : Fin 1) (hb : 128 * (t.val / 32) + r.val < 256) :
    B0 m c t (ix2 r u) = (V m c main_v19 : S256x1.Idx → Elt F .f32) (ix2 ⟨128 * (t.val / 32) + r.val, hb⟩ u) :=
  Cert.KernelIdeal.Blocks.iblk0_at m c t r u hb
theorem B1_at (c : Dev nD) (t : Fin cfg0.N) (r : Fin 128) (u : Fin 1) (hb : 128 * (t.val / 32) + r.val < 256) :
    B1 m c t (ix2 r u) = (V m c main_v20 : S256x1.Idx → Elt F .f32) (ix2 ⟨128 * (t.val / 32) + r.val, hb⟩ u) :=
  Cert.KernelIdeal.Blocks.iblk1_at m c t r u hb
theorem B2_at (c : Dev nD) (t : Fin cfg0.N) (r : Fin 128) (u : Fin 1) (hb : 128 * (t.val / 32) + r.val < 256) :
    B2 m c t (ix2 r u) = (V m c main_v21 : S256x1.Idx → Elt F .f32) (ix2 ⟨128 * (t.val / 32) + r.val, hb⟩ u) :=
  Cert.KernelIdeal.Blocks.iblk2_at m c t r u hb
theorem B3_at (c : Dev nD) (t : Fin cfg0.N) (r : Fin 128) (k : Fin 3072) (hb : 128 * (t.val / 32) + r.val < 256) :
    B3 m c t (ix2 r k)
      = (m ((c.tc : Thread nD τ).loc main_arg0) : S256x3072.Idx → Elt F .f32) (ix2 ⟨128 * (t.val / 32) + r.val, hb⟩ k) :=
  Cert.KernelIdeal.Blocks.iblk3_at m c t r k hb
theorem B4_at (c : Dev nD) (t : Fin cfg0.N) (q : Fin 512) (k : Fin 3072) (hb : 512 * (t.val % 32) + q.val < 16384) :
    B4 m c t (ix2 q k)
      = (m ((c.tc : Thread nD τ).loc main_arg2) : S16384x3072.Idx → Elt F .f32) (ix2 ⟨512 * (t.val % 32) + q.val, hb⟩ k) :=
  Cert.KernelIdeal.Blocks.iblk4_at m c t q k hb

/-- What the carried buffers (weighted sum, maximum, normaliser) hold after point `n`. -/
def carried (c : Dev nD) (n : ℕ) (h : n < cfg0.N) : Vec F S128x3072 .f32 × Vec F S128x1 .f32 × Vec F S128x1 .f32 :=
  (outsAt0 m c n h).2

/-- What the output block holds after point `n`. -/
def outBlock (c : Dev nD) (n : ℕ) (h : n < cfg0.N) : Vec F S128x3072 .f32 := (outsAt0 m c n h).1

/-- First data block of a row block: reset to (0, -inf, 0), then one update. -/
theorem carried_first (c : Dev nD) (t : Fin cfg0.N) (h0 : t.val % 32 = 0) (h1 : ¬t.val % 32 = 31) :
    carried m c t.val t.isLt
      = (k0_pay6 (B4 m c t) (PB m c t) k0_pay13 k0_pay10 k0_pay9, k0_pay7 (PB m c t) k0_pay13 k0_pay10,
          k0_pay5 (PB m c t) k0_pay13 k0_pay10 k0_pay11) := by
  unfold carried
  rw [outsAt0_A m c t h0 h1]
  dsimp only
  rw [Cert.KernelIdeal.Pieces.sout0_A_0_eq, Cert.KernelIdeal.Pieces.sout0_A_1_eq, Cert.KernelIdeal.Pieces.sout0_A_2_eq]
  rfl

/-- A data block in the middle: one update from the previous point's contents. -/
theorem carried_middle (c : Dev nD) (t : Fin cfg0.N) (h0 : ¬t.val % 32 = 0) (h1 : ¬t.val % 32 = 31) :
    carried m c t.val t.isLt
      = (k0_pay6 (B4 m c t) (PB m c t) k0_pay13 (carried m c (t.val - 1) (Nat.lt_of_le_of_lt (Nat.sub_le _ _) t.isLt)).2.1
            (carried m c (t.val - 1) (Nat.lt_of_le_of_lt (Nat.sub_le _ _) t.isLt)).1,
          k0_pay7 (PB m c t) k0_pay13 (carried m c (t.val - 1) (Nat.lt_of_le_of_lt (Nat.sub_le _ _) t.isLt)).2.1,
          k0_pay5 (PB m c t) k0_pay13 (carried m c (t.val - 1) (Nat.lt_of_le_of_lt (Nat.sub_le _ _) t.isLt)).2.1
            (carried m c (t.val - 1) (Nat.lt_of_le_of_lt (Nat.sub_le _ _) t.isLt)).2.2) := by
  unfold carried
  rw [outsAt0_B m c t h0 h1]
  dsimp only
  rw [Cert.KernelIdeal.Pieces.sout0_B_0_eq, Cert.KernelIdeal.Pieces.sout0_B_1_eq, Cert.KernelIdeal.Pieces.sout0_B_2_eq]
  rfl

/-- The last data block: the same update, … -/
theorem carried_last (c : Dev nD) (t : Fin cfg0.N) (h0 : ¬t.val % 32 = 0) (h1 : t.val % 32 = 31) :
    carried m c t.val t.isLt
      = (k0_pay6 (B4 m c t) (PB m c t) k0_pay13 (carried m c (t.val - 1) (Nat.lt_of_le_of_lt (Nat.sub_le _ _) t.isLt)).2.1
            (carried m c (t.val - 1) (Nat.lt_of_le_of_lt (Nat.sub_le _ _) t.isLt)).1,
          k0_pay7 (PB m c t) k0_pay13 (carried m c (t.val - 1) (Nat.lt_of_le_of_lt (Nat.sub_le _ _) t.isLt)).2.1,
          k0_pay5 (PB m c t) k0_pay13 (carried m c (t.val - 1) (Nat.lt_of_le_of_lt (Nat.sub_le _ _) t.isLt)).2.1
            (carried m c (t.val - 1) (Nat.lt_of_le_of_lt (Nat.sub_le _ _) t.isLt)).2.2) := by
  unfold carried
  rw [outsAt0_C m c t h0 h1]
  dsimp only
  rw [Cert.KernelIdeal.Pieces.sout0_C_0_eq, Cert.KernelIdeal.Pieces.sout0_C_1_eq, Cert.KernelIdeal.Pieces.sout0_C_2_eq]
  rfl

/-- … and the output block is stored from the triple just updated, the query block and the variance and scale columns. -/
theorem out_last (c : Dev nD) (t : Fin cfg0.N) (h0 : ¬t.val % 32 = 0) (h1 : t.val % 32 = 31) :
    outBlock m c t.val t.isLt
      = k0_pay8 (carried m c t.val t.isLt).1 (carried m c t.val t.isLt).2.2 (B3 m c t) (B2 m c t) (B1 m c t) := by
  rw [carried_last m c t h0 h1]
  unfold outBlock carried
  rw [outsAt0_C m c t h0 h1]
  dsimp only
  rw [Cert.KernelIdeal.Pieces.out0_C_5_eq]
  rfl

end Cert.KernelIdeal.Cases

end
-- ==== Proof.Layout.lean ====
/-
  Two readings of a layout operation at an index, for column vectors: a length-a vector cast to an
  a-by-1 column reads the vector at the row; an a-by-1 column broadcast along a new second axis of length b
  reads the column at the row.
-/
import Idealize.ShloMosaic.Lib.Pipeline.Value
import Idealize.ShloMosaic.Lib.ValueIdx
import Idealize.ShloMosaic.Lib.ValueLayout

namespace Cert.Layout

open Idealize.ShloMosaic Idealize.ShloMosaic.ValueIdx

variable {α : Type}

/-- A length-`a` vector cast to `[a, 1]` reads, at `(i, 0)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.PayLogit.lean ====
/-
  The block of pre-negation logits the body computes, read at row r and column c of the block: from the
  query block x, the data block y and the three schedule columns (alpha, variance, sqrt alpha),
    (D/2) * log(var_r) + (1/2 * ((|x_r|^2 - (2 * sa_r) * <x_r, y_c>) + alpha_r * |y_c|^2)) / var_r.
-/
import proofs.«149353_j90323162235656_2_alg».proof.Proof.Gen.KernelIdeal.Skeleton
import proofs.«149353_j90323162235656_2_alg».proof.Proof.Spec
import proofs.«149353_j90323162235656_2_alg».proof.Proof.Layout
import Idealize.ShloMosaic.PureOps.Ideal.Laws

noncomputable section

namespace Cert.KernelIdeal.PayLogit

open Idealize.ShloMosaic Idealize.ShloMosaic.ValueIdx Cert.KernelIdeal Cert.KernelIdeal.Gen

/-- A column through a same-shape cast, broadcast along a new second axis, reads the column at the row. -/
private theorem col_at (v : FVec Ideal S128x1 .f32) (r : Fin 128) (c : Fin 512) :
    broadcastTo S128x512 (shapeCast S128x1 v shapeCasts_S128x1_S128x1) broadcasts_S128x1_S128x512 (ix2 r c)
      = v (ix2 r (0 : Fin 1)) := by
  rw [shapeCast_self]
  exact Cert.Layout.broadcastTo_a1_ab_apply v _ r c

/-- The lane sums of a 128-row block, as a column broadcast along the second axis: at (r, c) the sum over row r. -/
private theorem rowsum_col_at (v : FVec Ideal S128x3072 .f32) (hφ : FKind.Formats .f32)
    (hacc : (0x00000000#32 : BitVec 32) = FKind.add.neutral .f32 hφ) (r : Fin 128) (c : Fin 512) :
    broadcastTo S128x512
        (shapeCast S128x1 (multiReduction .add [1] S128 v 0x00000000#32 reduces_S128x3072_S128 hφ hacc) shapeCasts_S128_S128x1)
        broadcasts_S128x1_S128x512 (ix2 r c)
      = ∑ k : Fin 3072, v (ix2 r k) := by
  refine (Cert.Layout.broadcastTo_a1_ab_apply _ _ r c).trans ?_
  refine (Cert.Layout.shapeCast_a_a1_apply _ _ r 0).trans ?_
  refine (Ideal.multiReduction_add_single v _ _ hφ hacc (ix1 r)).trans ?_
  refine Finset.sum_congr rfl fun k _ => congrArg v (funext fun a => Fin.ext ?_)
  match a with
  | ⟨0, _⟩ => rfl
  | ⟨1, _⟩ => rfl

/-- The lane sums of a 512-row block, as a row broadcast along the first axis: at (r, c) the sum over row c. -/
private theorem rowsum_row_at (v : FVec Ideal S512x3072 .f32) (hφ : FKind.Formats .f32)
    (hacc : (0x00000000#32 : BitVec 32) = FKind.add.neutral .f32 hφ) (r : Fin 128) (c : Fin 512) :
    broadcastTo S128x512
        (shapeCast S1x512 (multiReduction .add [1] S512 v 0x00000000#32 reduces_S512x3072_S512 hφ hacc) shapeCasts_S512_S1x512)
        broadcasts_S1x512_S128x512 (ix2 r c)
      = ∑ k : Fin 3072, v (ix2 c k) := by
  refine (broadcastTo_1b_ab_apply _ _ r c).trans ?_
  refine (shapeCast_a_1a_apply _ _ 0 c).trans ?_
  refine (Ideal.multiReduction_add_single v _ _ hφ hacc (ix1 c)).trans ?_
  refine Finset.sum_congr rfl fun k _ => congrArg v (funext fun a => Fin.ext ?_)
  match a with
  | ⟨0, _⟩ => rfl
  | ⟨1, _⟩ => rfl

/-- The left operand's index of the block product at output (i, ·) and contraction coordinate q is (i 0, q). -/
private theorem lhs_0 (i : S128x512.Idx) (q : dot_S128x3072_S512x3072_S128x512_1_1_0_0_n_n.contr.Idx) :
    (dot_S128x3072_S512x3072_S128x512_1_1_0_0_n_n.lhsIdx i q 0).val = (i 0).val := by
  unfold DotDims.lhsIdx
  rw [dif_neg (show ¬(0 : Fin S128x3072.rank) ∈ dot_S128x3072_S512x3072_S128x512_1_1_0_0_n_n.lhsBatch by decide), dif_pos (show (0 : Fin S128x3072.rank) ∈ dot_S128x3072_S512x3072_S128x512_1_1_0_0_n_n.lhsNonContracting by decide)]
  rfl
private theorem lhs_1 (i : S128x512.Idx) (q : dot_S128x3072_S512x3072_S128x512_1_1_0_0_n_n.contr.Idx) :
    (dot_S128x3072_S512x3072_S128x512_1_1_0_0_n_n.lhsIdx i q 1).val = (q ⟨0, by decide⟩).val :=
  dot_S128x3072_S512x3072_S128x512_1_1_0_0_n_n.lhsIdx_val_of_single rfl i q
/-- The right operand's index at output (·, j) and contraction coordinate q is (j, q). -/
private theorem rhs_0 (i : S128x512.Idx) (q : dot_S128x3072_S512x3072_S128x512_1_1_0_0_n_n.contr.Idx) :
    (dot_S128x3072_S512x3072_S128x512_1_1_0_0_n_n.rhsIdx i q 0).val = (i 1).val := by
  unfold DotDims.rhsIdx
  rw [dif_neg (show ¬(0 : Fin S512x3072.rank) ∈ dot_S128x3072_S512x3072_S128x512_1_1_0_0_n_n.rhsBatch by decide), dif_pos (show (0 : Fin S512x3072.rank) ∈ dot_S128x3072_S512x3072_S128x512_1_1_0_0_n_n.rhsNonContracting by decide)]
  rfl
private theorem rhs_1 (i : S128x512.Idx) (q : dot_S128x3072_S512x3072_S128x512_1_1_0_0_n_n.contr.Idx) :
    (dot_S128x3072_S512x3072_S128x512_1_1_0_0_n_n.rhsIdx i q 1).val = (q ⟨0, by decide⟩).val :=
  dot_S128x3072_S512x3072_S128x512_1_1_0_0_n_n.rhsIdx_val_of_single rfl i q

/-- The block product into the zero accumulator, read at (r, c): the inner product of row r of the left block and
    row c of the right block. -/
private theorem dot_at (a : FVec Ideal S128x3072 .f32) (b : FVec Ideal S512x3072 .f32) (r : Fin 128) (c : Fin 512) :
    matmul dot_S128x3072_S512x3072_S128x512_1_1_0_0_n_n (some .fp32) a b (constant (F := Ideal) S128x512 .f32 0x00000000#32) (ix2 r c)
      = ∑ k : Fin 3072, a (ix2 r k) * b (ix2 c k) := by
  simp only [matmul]
  rw [Ideal.matmul_constant_zero_apply, ← Equiv.sum_comp (ValueIdx.contrEquiv1 dot_S128x3072_S512x3072_S128x512_1_1_0_0_n_n 3072 rfl rfl).symm]
  refine Finset.sum_congr rfl fun k _ => ?_
  have hk := ValueIdx.contrEquiv1_symm_val dot_S128x3072_S512x3072_S128x512_1_1_0_0_n_n 3072 rfl rfl k
  have el : dot_S128x3072_S512x3072_S128x512_1_1_0_0_n_n.lhsIdx (ix2 r c) ((ValueIdx.contrEquiv1 dot_S128x3072_S512x3072_S128x512_1_1_0_0_n_n 3072 rfl rfl).symm k) = ix2 r k := funext fun a => Fin.ext (by
    match a with
    | ⟨0, _⟩ => exact lhs_0 _ _
    | ⟨1, _⟩ => exact (lhs_1 _ _).trans hk)
  have er : dot_S128x3072_S512x3072_S128x512_1_1_0_0_n_n.rhsIdx (ix2 r c) ((ValueIdx.contrEquiv1 dot_S128x3072_S512x3072_S128x512_1_1_0_0_n_n 3072 rfl rfl).symm k) = ix2 c k := funext fun a => Fin.ext (by
    match a with
    | ⟨0, _⟩ => exact rhs_0 _ _
    | ⟨1, _⟩ => exact (rhs_1 _ _).trans hk)
  rw [el, er]

theorem pay12_at (x3 : Vec Ideal S128x3072 .f32) (x4 : Vec Ideal S512x3072 .f32) (x0 x1 x2 : Vec Ideal S128x1 .f32)
    (r : Fin 128) (c : Fin 512) :
    k0_pay12 (F := Ideal) x3 x4 x0 x1 x2 (ix2 r c)
      = Cert.Spec.halfD * Ideal.log (x1 (ix2 r (0 : Fin 1)))
        + Ideal.div (Cert.Spec.half * (((∑ k : Fin 3072, x3 (ix2 r k) * x3 (ix2 r k))
              - (Cert.Spec.two * x2 (ix2 r (0 : Fin 1))) * (∑ k : Fin 3072, x3 (ix2 r k) * x4 (ix2 c k)))
            + x0 (ix2 r (0 : Fin 1)) * (∑ k : Fin 3072, x4 (ix2 c k) * x4 (ix2 c k)))) (x1 (ix2 r (0 : Fin 1))) := by
  unfold k0_pay12
  simp only [addf_apply, mulf_apply, subf_apply, divf_apply, broadcast_apply]
  refine congrArg₂ (· + ·) ?_ (congrArg₂ Ideal.div (congrArg₂ (· * ·) rfl
    (congrArg₂ (· + ·) (congrArg₂ (· - ·) ?_ (congrArg₂ (· * ·) ?_ ?_)) (congrArg₂ (· * ·) ?_ ?_))) ?_)
  · refine (Cert.Layout.broadcastTo_a1_ab_apply _ _ r c).trans ?_
    rw [shapeCast_self]
    rfl
  · exact rowsum_col_at (mulf x3 x3) _ _ r c
  · refine (Cert.Layout.broadcastTo_a1_ab_apply _ _ r c).trans ?_
    rw [shapeCast_self]
    rfl
  · exact dot_at x3 x4 r c
  · exact col_at x0 r c
  · exact rowsum_row_at (mulf x4 x4) _ _ r c
  · exact col_at x1 r c

end Cert.KernelIdeal.PayLogit

end
-- ==== Proof.PaySoftmax.lean ====
/-
  The body's update of the running maximum, normaliser and weighted sum, read at a row r (and a feature d):
  each is the matching component of one `Spec.step` on the row's previous triple, the row's 512 logits of the
  block (the negated pre-logits) and, for the weighted sum, column d of the data block. The reset values are
  0, -inf, 0. The final division: (x - sa * (a / l)) / sqrt(var).
-/
import proofs.«149353_j90323162235656_2_alg».proof.Proof.Gen.KernelIdeal.Skeleton
import proofs.«149353_j90323162235656_2_alg».proof.Proof.Spec
import proofs.«149353_j90323162235656_2_alg».proof.Proof.Layout
import Idealize.ShloMosaic.PureOps.Ideal.Laws

noncomputable section

namespace Cert.KernelIdeal.PaySoftmax

open Idealize.ShloMosaic Idealize.ShloMosaic.ValueIdx Cert.KernelIdeal Cert.KernelIdeal.Gen

/-- The word 0xFF800000 is -inf. -/
private theorem neg_inf_word : Ideal.ofBits .f32 0xFF800000#32 = ⊥ := by simp [Ideal.ofBits, Ideal.ieee]

/-- The reduced row index `r` with lane `k` put back is (r, k). -/
private theorem lift_row (h : S128x512.Reduces [1] S128) (r : Fin 128) (k : Fin (S128x512.size 1)) :
    h.lift (ix1 r) k = ix2 r (⟨k.val, k.isLt⟩ : Fin 512) := by
  funext c; apply Fin.ext
  fin_cases c <;> rfl

/-- The logits of row `r` in the block: zero minus the pre-logits. -/
private abbrev lg (v36 : FVec Ideal S128x512 .f32) (r : Fin 128) : Fin 512 → EReal :=
  fun c => Ideal.ofBits .f32 0x00000000#32 - v36 (ix2 r c)

/-- The new running maximum of row `r`: the larger of the previous one and the block's largest logit. -/
private abbrev newMax (v36 : FVec Ideal S128x512 .f32) (mp : Vec Ideal S128x1 .f32) (r : Fin 128) : EReal :=
  max (mp (ix2 r (0 : Fin 1))) ((Finset.univ : Finset (Fin 512)).fold max ⊥ (lg v36 r))

/-- The block's logits at (r, c). -/
private theorem pay1_at (v36 : FVec Ideal S128x512 .f32) (r : Fin 128) (c : Fin 512) :
    k0_pay1 (F := Ideal) v36 k0_pay13 (ix2 r c) = lg v36 r c := rfl

theorem pay9_at (i : S128x3072.Idx) : k0_pay9 (F := Ideal) i = 0 := by
  unfold k0_pay9
  rw [shapeCast_self]
  exact Ideal.ofBits_zero_f32

theorem pay10_at (i : S128x1.Idx) : k0_pay10 (F := Ideal) i = ⊥ := by
  unfold k0_pay10
  rw [shapeCast_self]
  exact neg_inf_word

theorem pay11_at (i : S128x1.Idx) : k0_pay11 (F := Ideal) i = 0 := by
  unfold k0_pay11
  rw [shapeCast_self]
  exact Ideal.ofBits_zero_f32

/-- The maximum update read at row `r`. -/
private theorem pay2_at (v36 : FVec Ideal S128x512 .f32) (mp : Vec Ideal S128x1 .f32) (r : Fin 128) (u : Fin 1) :
    k0_pay2 (F := Ideal) v36 k0_pay13 mp (ix2 r u) = newMax v36 mp r := by
  obtain rfl : u = 0 := Subsingleton.elim u 0
  unfold k0_pay2
  refine congrArg (max (mp (ix2 r (0 : Fin 1)))) ?_
  refine (Cert.Layout.shapeCast_a_a1_apply _ _ r 0).trans ?_
  refine (Ideal.multiReduction_maximumf_single _ _ _ _ _ (ix1 r)).trans ?_
  have hf : (k0_pay1 (F := Ideal) v36 k0_pay13 ∘ reduces_S128x512_S128.lift (ix1 r)) = lg v36 r :=
    funext fun k => (congrArg (k0_pay1 (F := Ideal) v36 k0_pay13) (lift_row _ r k)).trans (pay1_at v36 r _)
  exact congrArg₂ (fun a f => Finset.fold max a f (Finset.univ : Finset (Fin 512))) neg_inf_word hf

theorem pay7_at (v36 : FVec Ideal S128x512 .f32) (mp : Vec Ideal S128x1 .f32) (r : Fin 128) (u : Fin 1)
    (lp ap : EReal) (yb : Fin 512 → EReal) :
    k0_pay7 (F := Ideal) v36 k0_pay13 mp (ix2 r u)
      = (Cert.Spec.step (mp (ix2 r (0 : Fin 1)), lp, ap) (fun c => Ideal.ofBits .f32 0x00000000#32 - v36 (ix2 r c)) yb).1 := by
  unfold k0_pay7
  rw [shapeCast_self]
  exact pay2_at v36 mp r u

/-- The rescaling factor of row `r`: exp (previous maximum - new maximum). -/
private theorem pay3_at (v36 : FVec Ideal S128x512 .f32) (mp : Vec Ideal S128x1 .f32) (r : Fin 128) (u : Fin 1) :
    k0_pay3 (F := Ideal) v36 k0_pay13 mp (ix2 r u) = Ideal.exp (mp (ix2 r (0 : Fin 1)) - newMax v36 mp r) := by
  obtain rfl : u = 0 := Subsingleton.elim u 0
  unfold k0_pay3
  exact congrArg (fun t => Ideal.exp (mp (ix2 r (0 : Fin 1)) - t)) (pay2_at v36 mp r 0)

/-- The block's weights at (r, c): exp (logit - new maximum). -/
private theorem pay4_at (v36 : FVec Ideal S128x512 .f32) (mp : Vec Ideal S128x1 .f32) (r : Fin 128) (c : Fin 512) :
    k0_pay4 (F := Ideal) v36 k0_pay13 mp (ix2 r c) = Ideal.exp (lg v36 r c - newMax v36 mp r) := by
  unfold k0_pay4
  have e : broadcastTo S128x512 (k0_pay2 (F := Ideal) v36 k0_pay13 mp) broadcasts_S128x1_S128x512 (ix2 r c) = newMax v36 mp r :=
    (Cert.Layout.broadcastTo_a1_ab_apply _ _ r c).trans (pay2_at v36 mp r 0)
  exact congrArg (fun t => Ideal.exp (lg v36 r c - t)) e

theorem pay5_at (v36 : FVec Ideal S128x512 .f32) (mp lp : Vec Ideal S128x1 .f32) (r : Fin 128) (u : Fin 1)
    (ap : EReal) (yb : Fin 512 → EReal) :
    k0_pay5 (F := Ideal) v36 k0_pay13 mp lp (ix2 r u)
      = (Cert.Spec.step (mp (ix2 r (0 : Fin 1)), lp (ix2 r (0 : Fin 1)), ap) (fun c => Ideal.ofBits .f32 0x00000000#32 - v36 (ix2 r c)) yb).2.1 := by
  obtain rfl : u = 0 := Subsingleton.elim u 0
  unfold k0_pay5
  rw [shapeCast_self]
  show k0_pay3 (F := Ideal) v36 k0_pay13 mp (ix2 r 0) * lp (ix2 r 0)
      + shapeCast S128x1 (multiReduction (F := Ideal) .add [1] S128 (k0_pay4 (F := Ideal) v36 k0_pay13 mp) 0x00000000#32
          reduces_S128x512_S128 (.inl rfl) rfl) shapeCasts_S128_S128x1 (ix2 r 0)
    = Ideal.exp (mp (ix2 r 0) - newMax v36 mp r) * lp (ix2 r 0) + ∑ c : Fin 512, Ideal.exp (lg v36 r c - newMax v36 mp r)
  refine congrArg₂ (· + ·) (congrArg (· * lp (ix2 r 0)) (pay3_at v36 mp r 0)) ?_
  refine (Cert.Layout.shapeCast_a_a1_apply _ _ r 0).trans ?_
  refine (Ideal.multiReduction_add_single _ _ _ _ _ (ix1 r)).trans ?_
  exact Finset.sum_congr rfl fun k _ =>
    (congrArg (k0_pay4 (F := Ideal) v36 k0_pay13 mp) (lift_row _ r k)).trans (pay4_at v36 mp r _)

/-- The dimension numbers of the weights-by-data product: contraction of axis 1 with axis 0. -/
private abbrev WD := dot_S128x512_S512x3072_S128x3072_1_0_0_1_n_n

private theorem wd_lhs0 (i : S128x3072.Idx) (q : WD.contr.Idx) : (WD.lhsIdx i q 0).val = (i 0).val := by
  unfold DotDims.lhsIdx
  rw [dif_neg (show ¬(0 : Fin S128x512.rank) ∈ WD.lhsBatch by decide), dif_pos (show (0 : Fin S128x512.rank) ∈ WD.lhsNonContracting by decide)]
  rfl

private theorem wd_rhs1 (i : S128x3072.Idx) (q : WD.contr.Idx) : (WD.rhsIdx i q 1).val = (i 1).val := by
  unfold DotDims.rhsIdx
  rw [dif_neg (show ¬(1 : Fin S512x3072.rank) ∈ WD.rhsBatch by decide), dif_pos (show (1 : Fin S512x3072.rank) ∈ WD.rhsNonContracting by decide)]
  rfl

/-- The product of a 128-by-512 array with the 512-by-3072 data block into the zero accumulator, at (r, d). -/
private theorem wd_matmul_at (w : FVec Ideal S128x512 .f32) (y : FVec Ideal S512x3072 .f32) (r : Fin 128) (d : Fin 3072) :
    matmul WD (some .fp32) w y (constant (F := Ideal) S128x3072 .f32 0x00000000#32) (ix2 r d)
      = ∑ k : Fin 512, w (ix2 r k) * y (ix2 k d) := by
  refine (Ideal.matmul_constant_zero_apply WD (some .fp32) w y (ix2 r d)).trans ?_
  rw [← Equiv.sum_comp (contrEquiv1 WD 512 rfl rfl).symm]
  refine Finset.sum_congr rfl fun k _ => ?_
  have hk := contrEquiv1_symm_val WD 512 rfl rfl k
  have el : WD.lhsIdx (ix2 r d) ((contrEquiv1 WD 512 rfl rfl).symm k) = ix2 r k := funext fun a => Fin.ext (by
    match a with
    | ⟨0, _⟩ => exact wd_lhs0 _ _
    | ⟨1, _⟩ => exact (WD.lhsIdx_val_of_single rfl _ _).trans hk)
  have er : WD.rhsIdx (ix2 r d) ((contrEquiv1 WD 512 rfl rfl).symm k) = ix2 k d := funext fun a => Fin.ext (by
    match a with
    | ⟨0, _⟩ => exact (WD.rhsIdx_val_of_single rfl _ _).trans hk
    | ⟨1, _⟩ => exact wd_rhs1 _ _)
  rw [el, er]

theorem pay6_at (y : Vec Ideal S512x3072 .f32) (v36 : FVec Ideal S128x512 .f32) (mp : Vec Ideal S128x1 .f32)
    (ap : Vec Ideal S128x3072 .f32) (r : Fin 128) (d : Fin 3072) (lp : EReal) :
    k0_pay6 (F := Ideal) y v36 k0_pay13 mp ap (ix2 r d)
      = (Cert.Spec.step (mp (ix2 r (0 : Fin 1)), lp, ap (ix2 r d)) (fun c => Ideal.ofBits .f32 0x00000000#32 - v36 (ix2 r c))
          (fun c => y (ix2 c d))).2.2 := by
  unfold k0_pay6
  rw [shapeCast_self]
  show broadcastTo S128x3072 (k0_pay3 (F := Ideal) v36 k0_pay13 mp) broadcasts_S128x1_S128x3072 (ix2 r d) * ap (ix2 r d)
      + matmul (φ₂ := .f32) WD (some .fp32) (k0_pay4 (F := Ideal) v36 k0_pay13 mp) y (constant (F := Ideal) S128x3072 .f32 0x00000000#32) (ix2 r d)
    = Ideal.exp (mp (ix2 r 0) - newMax v36 mp r) * ap (ix2 r d)
      + ∑ c : Fin 512, Ideal.exp (lg v36 r c - newMax v36 mp r) * y (ix2 c d)
  refine congrArg₂ (· + ·) (congrArg (· * ap (ix2 r d))
    ((Cert.Layout.broadcastTo_a1_ab_apply _ _ r d).trans (pay3_at v36 mp r 0))) ?_
  refine (wd_matmul_at _ y r d).trans ?_
  exact Finset.sum_congr rfl fun k _ => congrArg (· * y (ix2 k d)) (pay4_at v36 mp r k)

theorem pay8_at (acc : Vec Ideal S128x3072 .f32) (l : Vec Ideal S128x1 .f32) (x : Vec Ideal S128x3072 .f32)
    (sa var : Vec Ideal S128x1 .f32) (r : Fin 128) (d : Fin 3072) :
    k0_pay8 (F := Ideal) acc l x sa var (ix2 r d)
      = Ideal.div (x (ix2 r d) - sa (ix2 r (0 : Fin 1)) * Ideal.div (acc (ix2 r d)) (l (ix2 r (0 : Fin 1))))
          (Ideal.sqrt (var (ix2 r (0 : Fin 1)))) := by
  unfold k0_pay8
  simp only [shapeCast_self]
  show Ideal.div (x (ix2 r d) - broadcastTo S128x3072 sa broadcasts_S128x1_S128x3072 (ix2 r d)
        * Ideal.div (acc (ix2 r d)) (broadcastTo S128x3072 l broadcasts_S128x1_S128x3072 (ix2 r d)))
      (broadcastTo S128x3072 (sqrt (F := Ideal) var) broadcasts_S128x1_S128x3072 (ix2 r d)) = _
  rw [Cert.Layout.broadcastTo_a1_ab_apply, Cert.Layout.broadcastTo_a1_ab_apply, Cert.Layout.broadcastTo_a1_ab_apply]
  rfl

end Cert.KernelIdeal.PaySoftmax

end
-- ==== Proof.StepAt.lean ====
/-
  One grid point's update of the carried triple, read at row r and feature d: the new maximum, normaliser and
  weighted sum are together ONE `Spec.step` applied to the old triple at (r, d), the row's 512 logits of the
  block (the negated pre-logits) and column d of the data block.
-/
import proofs.«149353_j90323162235656_2_alg».proof.Proof.PaySoftmax

noncomputable section

namespace Cert.KernelIdeal.StepAt

open Idealize.ShloMosaic Idealize.ShloMosaic.ValueIdx Cert.KernelIdeal Cert.KernelIdeal.Gen

theorem step_at (P : FVec Ideal S128x512 .f32) (y4 : Vec Ideal S512x3072 .f32) (mp lp : Vec Ideal S128x1 .f32)
    (ap : Vec Ideal S128x3072 .f32) (r : Fin 128) (d : Fin 3072) :
    ((k0_pay7 (F := Ideal) P k0_pay13 mp (ix2 r (0 : Fin 1)), k0_pay5 (F := Ideal) P k0_pay13 mp lp (ix2 r (0 : Fin 1)),
        k0_pay6 (F := Ideal) y4 P k0_pay13 mp ap (ix2 r d)) : EReal × EReal × EReal)
      = Cert.Spec.step (mp (ix2 r (0 : Fin 1)), lp (ix2 r (0 : Fin 1)), ap (ix2 r d))
          (fun q => Ideal.ofBits .f32 0x00000000#32 - P (ix2 r q)) (fun q => y4 (ix2 q d)) := by
  rw [Cert.KernelIdeal.PaySoftmax.pay7_at P mp r 0 (lp (ix2 r (0 : Fin 1))) (ap (ix2 r d)) (fun q => y4 (ix2 q d)),
    Cert.KernelIdeal.PaySoftmax.pay5_at P mp lp r 0 (ap (ix2 r d)) (fun q => y4 (ix2 q d)),
    Cert.KernelIdeal.PaySoftmax.pay6_at y4 P mp ap r d (lp (ix2 r (0 : Fin 1)))]

/-- The same from the reset values: the step starts from (-inf, 0, 0). -/
theorem step_at_reset (P : FVec Ideal S128x512 .f32) (y4 : Vec Ideal S512x3072 .f32) (r : Fin 128) (d : Fin 3072) :
    ((k0_pay7 (F := Ideal) P k0_pay13 (k0_pay10 (F := Ideal)) (ix2 r (0 : Fin 1)), k0_pay5 (F := Ideal) P k0_pay13 (k0_pay10 (F := Ideal)) (k0_pay11 (F := Ideal)) (ix2 r (0 : Fin 1)),
        k0_pay6 (F := Ideal) y4 P k0_pay13 (k0_pay10 (F := Ideal)) (k0_pay9 (F := Ideal)) (ix2 r d)) : EReal × EReal × EReal)
      = Cert.Spec.step (⊥, 0, 0) (fun q => Ideal.ofBits .f32 0x00000000#32 - P (ix2 r q)) (fun q => y4 (ix2 q d)) := by
  rw [step_at, Cert.KernelIdeal.PaySoftmax.pay10_at, Cert.KernelIdeal.PaySoftmax.pay11_at, Cert.KernelIdeal.PaySoftmax.pay9_at]

end Cert.KernelIdeal.StepAt

end
-- ==== Proof.HostGlue.lean ====
/-
  What the region finds in the three schedule columns: the host operations in front of it compute the clipped
  schedule value, its complement to one and its square root exactly as the one-pass program does, then reshape
  each length-256 vector to a 256-by-1 column; so entry (b, 0) of each column is the one-pass program's value at b.
-/
import proofs.«149353_j90323162235656_2_alg».proof.Proof.Gen.KernelIdeal.Frame
import proofs.«149353_j90323162235656_2_alg».proof.Proof.Gen.ReferenceIdeal.Read
import proofs.«149353_j90323162235656_2_alg».proof.Proof.Layout
import Idealize.ShloMosaic.Lib.StableHlo.Run

noncomputable section

namespace Cert.KernelIdeal.HostGlue

open Idealize.ShloMosaic Idealize.ShloMosaic.ValueIdx Cert.KernelIdeal Cert.KernelIdeal.Gen

/-- The first column is the reshape of the clipped schedule value: the operations in front of the region are, one by one,
    those that define the one-pass program's value, on the same literal words. -/
private theorem col_alpha (m : (ℓ : Loc nD τ sig) → Buf (Elt Ideal) ℓ) (c : Dev nD) :
    (V (F := Ideal) m c main_v19 : S256x1.Idx → EReal)
      = shapeCast S256x1 (Cert.ReferenceIdeal.Read.val_main_v15 (F := Ideal) (m ((c.tc : Thread nD τ).loc main_arg1)))
          shapeCasts_S256_S256x1 := by
  dsimp only [Gen.V]
  simp only [Gen.hostOps0, Gen.hostOps0_1, Gen.hostOps0_2, List.flatten_cons, List.flatten_nil, List.append_nil,
    List.cons_append, List.nil_append]
  after_results
  rfl

/-- The second column is the reshape of one minus the clipped schedule value. -/
private theorem col_var (m : (ℓ : Loc nD τ sig) → Buf (Elt Ideal) ℓ) (c : Dev nD) :
    (V (F := Ideal) m c main_v20 : S256x1.Idx → EReal)
      = shapeCast S256x1 (Cert.ReferenceIdeal.Read.val_main_v17 (F := Ideal) (m ((c.tc : Thread nD τ).loc main_arg1)))
          shapeCasts_S256_S256x1 := by
  dsimp only [Gen.V]
  simp only [Gen.hostOps0, Gen.hostOps0_1, Gen.hostOps0_2, List.flatten_cons, List.flatten_nil, List.append_nil,
    List.cons_append, List.nil_append]
  after_results
  rfl

/-- The third column is the reshape of the square root of the clipped schedule value. -/
private theorem col_sqrt_alpha (m : (ℓ : Loc nD τ sig) → Buf (Elt Ideal) ℓ) (c : Dev nD) :
    (V (F := Ideal) m c main_v21 : S256x1.Idx → EReal)
      = shapeCast S256x1 (Cert.ReferenceIdeal.Read.val_main_v18 (F := Ideal) (m ((c.tc : Thread nD τ).loc main_arg1)))
          shapeCasts_S256_S256x1 := by
  dsimp only [Gen.V]
  simp only [Gen.hostOps0, Gen.hostOps0_1, Gen.hostOps0_2, List.flatten_cons, List.flatten_nil, List.append_nil,
    List.cons_append, List.nil_append]
  after_results
  rfl

/-- Entry (b, 0) of a length-256 vector reshaped to a 256-by-1 column is entry b of the vector. -/
theorem V_alpha (m : (ℓ : Loc nD τ sig) → Buf (Elt Ideal) ℓ) (c : Dev nD) (b : Fin 256) (u : Fin 1) :
    (V (F := Ideal) m c main_v19 : S256x1.Idx → EReal) (ix2 b u)
      = Cert.ReferenceIdeal.Read.val_main_v15 (F := Ideal) (m ((c.tc : Thread nD τ).loc main_arg1)) (ix1 b) := by
  exact (congrFun (col_alpha m c) (ix2 b u)).trans (Cert.Layout.shapeCast_a_a1_apply (a := 256) _ _ b u)

theorem V_var (m : (ℓ : Loc nD τ sig) → Buf (Elt Ideal) ℓ) (c : Dev nD) (b : Fin 256) (u : Fin 1) :
    (V (F := Ideal) m c main_v20 : S256x1.Idx → EReal) (ix2 b u)
      = Cert.ReferenceIdeal.Read.val_main_v17 (F := Ideal) (m ((c.tc : Thread nD τ).loc main_arg1)) (ix1 b) := by
  exact (congrFun (col_var m c) (ix2 b u)).trans (Cert.Layout.shapeCast_a_a1_apply (a := 256) _ _ b u)

theorem V_sqrt_alpha (m : (ℓ : Loc nD τ sig) → Buf (Elt Ideal) ℓ) (c : Dev nD) (b : Fin 256) (u : Fin 1) :
    (V (F := Ideal) m c main_v21 : S256x1.Idx → EReal) (ix2 b u)
      = Cert.ReferenceIdeal.Read.val_main_v18 (F := Ideal) (m ((c.tc : Thread nD τ).loc main_arg1)) (ix1 b) := by
  exact (congrFun (col_sqrt_alpha m c) (ix2 b u)).trans (Cert.Layout.shapeCast_a_a1_apply (a := 256) _ _ b u)

end Cert.KernelIdeal.HostGlue

end
-- ==== Proof.Invariant.lean ====
/-
  What the carried buffers hold after each grid point. Fix a device; write X, Y for the query and data arrays
  and, for a query row b, alpha_b, var_b, sa_b for the schedule values the host operations computed.
  Point t works on row block t / 32 and data block t % 32. For a local row r (array row b = 128 (t / 32) + r)
  and a feature d, the triple (maximum, normaliser, weighted sum) after point t is the running softmax
  `Spec.run` of row b's logit sequence and feature d's data sequence after blocks 0 .. t % 32: at t % 32 = 0
  the body resets the triple and takes one step, elsewhere it takes one step from what the point before left.
-/
import proofs.«149353_j90323162235656_2_alg».proof.Proof.Gen.ReferenceIdeal.Read
import proofs.«149353_j90323162235656_2_alg».proof.Proof.Spec
import proofs.«149353_j90323162235656_2_alg».proof.Proof.Rows
import proofs.«149353_j90323162235656_2_alg».proof.Proof.Cases
import proofs.«149353_j90323162235656_2_alg».proof.Proof.PayLogit
import proofs.«149353_j90323162235656_2_alg».proof.Proof.StepAt
import proofs.«149353_j90323162235656_2_alg».proof.Proof.HostGlue

set_option maxRecDepth 16384

noncomputable section

namespace Cert.KernelIdeal.Invariant

open Idealize.ShloMosaic Idealize.ShloMosaic.TcCoe Idealize.ShloMosaic.ValueIdx Idealize.SL.Sem
open Cert.KernelIdeal Cert.KernelIdeal.Gen Cert.KernelIdeal.Cases

variable (m : (ℓ : Loc nD τ sig) → Buf (Elt Ideal) ℓ)

/-- The three argument arrays on device `c`. -/
abbrev X (c : Dev nD) : Cert.Spec.Queries := m ((c.tc : Thread nD τ).loc main_arg0)
abbrev TS (c : Dev nD) : IVec S256 32 := m ((c.tc : Thread nD τ).loc main_arg1)
abbrev Y (c : Dev nD) : Cert.Spec.Data := m ((c.tc : Thread nD τ).loc main_arg2)

/-- The schedule values of query row `b`. -/
abbrev AL (c : Dev nD) (b : Fin 256) : EReal := Cert.ReferenceIdeal.Read.val_main_v15 (F := Ideal) (TS m c) (ix1 b)
abbrev VAR (c : Dev nD) (b : Fin 256) : EReal := Cert.ReferenceIdeal.Read.val_main_v17 (F := Ideal) (TS m c) (ix1 b)
abbrev SA (c : Dev nD) (b : Fin 256) : EReal := Cert.ReferenceIdeal.Read.val_main_v18 (F := Ideal) (TS m c) (ix1 b)

/-- Row `b`'s logit sequence and feature `d`'s data sequence. -/
abbrev lg (c : Dev nD) (b : Fin 256) : ℕ → EReal := Cert.Rows.lgN (AL m c b) (VAR m c b) (SA m c b) (X m c) (Y m c) b
abbrev yv (c : Dev nD) (d : Fin 3072) : ℕ → EReal := Cert.Rows.yN (Y m c) d

theorem hN : cfg0.N = 64 := N_0

/-- The array row of local row `r` at point `n`. -/
def row (n : ℕ) (h : n < cfg0.N) (r : Fin 128) : Fin 256 :=
  ⟨128 * (n / 32) + r.val, by have := hN; have := r.isLt; omega⟩

/-- The negated pre-logits of local row `r` at point `t` are block `t % 32` of the row's logit sequence. -/
theorem block_logits (c : Dev nD) (t : Fin cfg0.N) (r : Fin 128) :
    (fun q : Fin 512 => Ideal.ofBits .f32 0x00000000#32 - PB m c t (ix2 r q))
      = Cert.Spec.blk (lg m c (row t.val t.isLt r)) (t.val % 32) := by
  have hN' := hN
  have hr := r.isLt
  have ht := t.isLt
  have hb : 128 * (t.val / 32) + r.val < 256 := by omega
  funext q
  have hq : 512 * (t.val % 32) + q.val < 16384 := by have := q.isLt; omega
  show _ = Cert.Rows.lgN _ _ _ _ _ _ (512 * (t.val % 32) + q.val)
  unfold Cert.Rows.lgN
  rw [dif_pos hq]
  unfold Cert.Spec.logitK Cert.Spec.dist Cert.Spec.xsq Cert.Spec.ysq Cert.Spec.xy
  refine congrArg (fun z => Ideal.ofBits .f32 0x00000000#32 - z) ?_
  unfold PB
  refine (Cert.KernelIdeal.PayLogit.pay12_at (B3 m c t) (B4 m c t) (B0 m c t) (B1 m c t) (B2 m c t) r q).trans ?_
  have e1 : B1 m c t (ix2 r (0 : Fin 1)) = VAR m c (row t.val t.isLt r) :=
    (B1_at m c t r 0 hb).trans (Cert.KernelIdeal.HostGlue.V_var m c ⟨128 * (t.val / 32) + r.val, hb⟩ 0)
  have e2 : B2 m c t (ix2 r (0 : Fin 1)) = SA m c (row t.val t.isLt r) :=
    (B2_at m c t r 0 hb).trans (Cert.KernelIdeal.HostGlue.V_sqrt_alpha m c ⟨128 * (t.val / 32) + r.val, hb⟩ 0)
  have e0 : B0 m c t (ix2 r (0 : Fin 1)) = AL m c (row t.val t.isLt r) :=
    (B0_at m c t r 0 hb).trans (Cert.KernelIdeal.HostGlue.V_alpha m c ⟨128 * (t.val / 32) + r.val, hb⟩ 0)
  have e3 : ∀ k : Fin 3072, B3 m c t (ix2 r k) = X m c (ix2 (row t.val t.isLt r) k) := fun k => B3_at m c t r k hb
  have e4 : ∀ k : Fin 3072, B4 m c t (ix2 q k) = Y m c (ix2 ⟨512 * (t.val % 32) + q.val, hq⟩ k) := fun k => B4_at m c t q k hq
  simp only [e0, e1, e2, e3, e4]

/-- Column `d` of the data block at point `t` is block `t % 32` of feature `d`'s data sequence. -/
theorem block_data (c : Dev nD) (t : Fin cfg0.N) (d : Fin 3072) :
    (fun q : Fin 512 => B4 m c t (ix2 q d)) = Cert.Spec.blk (yv m c d) (t.val % 32) := by
  have hN' := hN
  have ht := t.isLt
  funext q
  have hq : 512 * (t.val % 32) + q.val < 16384 := by have := q.isLt; omega
  show _ = Cert.Rows.yN _ _ (512 * (t.val % 32) + q.val)
  unfold Cert.Rows.yN
  rw [dif_pos hq, B4_at m c t q d hq]

/-- The triple (maximum, normaliser, weighted sum) the carried buffers hold for local row `r` and feature `d` after point `n`. -/
def triple (c : Dev nD) (n : ℕ) (h : n < cfg0.N) (r : Fin 128) (d : Fin 3072) : EReal × EReal × EReal :=
  ((carried m c n h).2.1 (ix2 r (0 : Fin 1)), (carried m c n h).2.2 (ix2 r (0 : Fin 1)), (carried m c n h).1 (ix2 r d))

/-- A point with `n % 32 = 0`: the running softmax after block 0. -/
theorem triple_first (c : Dev nD) (n : ℕ) (h : n < cfg0.N) (h0 : n % 32 = 0) (r : Fin 128) (d : Fin 3072) :
    triple m c n h r d = Cert.Spec.run (lg m c (row n h r)) (yv m c d) (n % 32) := by
  have h1 : ¬n % 32 = 31 := by omega
  unfold triple
  rw [carried_first m c ⟨n, h⟩ h0 h1]
  dsimp only
  refine (Cert.KernelIdeal.StepAt.step_at_reset (PB m c ⟨n, h⟩) (B4 m c ⟨n, h⟩) r d).trans ?_
  rw [block_logits m c ⟨n, h⟩ r, block_data m c ⟨n, h⟩ d]
  show Cert.Spec.step _ (Cert.Spec.blk (lg m c (row n h r)) (n % 32)) (Cert.Spec.blk (yv m c d) (n % 32)) = _
  rw [h0]
  rfl

/-- THE INVARIANT: after point `n` the triple is the running softmax of the row after blocks `0 .. n % 32`. -/
theorem triple_eq (c : Dev nD) : ∀ (n : ℕ) (h : n < cfg0.N) (r : Fin 128) (d : Fin 3072),
    triple m c n h r d = Cert.Spec.run (lg m c (row n h r)) (yv m c d) (n % 32)
  | 0, h, r, d => triple_first m c 0 h rfl r d
  | n + 1, h, r, d => by
    have hN' := hN
    by_cases h0 : (n + 1) % 32 = 0
    · exact triple_first m c (n + 1) h h0 r d
    · have ih := triple_eq c n (Nat.lt_of_succ_lt h) r d
      have hrow : row n (Nat.lt_of_succ_lt h) r = row (n + 1) h r := by
        unfold row; apply Fin.ext; show 128 * (n / 32) + r.val = 128 * ((n + 1) / 32) + r.val; omega
      obtain ⟨k, hk⟩ : ∃ k, (n + 1) % 32 = k + 1 := ⟨(n + 1) % 32 - 1, by omega⟩
      have hk' : n % 32 = k := by omega
      rw [hrow, hk'] at ih
      unfold triple at ih ⊢
      have hstep : ∀ (e : carried m c (n + 1) h
            = (k0_pay6 (B4 m c ⟨n + 1, h⟩) (PB m c ⟨n + 1, h⟩) k0_pay13 (carried m c n (Nat.lt_of_succ_lt h)).2.1 (carried m c n (Nat.lt_of_succ_lt h)).1,
               k0_pay7 (PB m c ⟨n + 1, h⟩) k0_pay13 (carried m c n (Nat.lt_of_succ_lt h)).2.1,
               k0_pay5 (PB m c ⟨n + 1, h⟩) k0_pay13 (carried m c n (Nat.lt_of_succ_lt h)).2.1 (carried m c n (Nat.lt_of_succ_lt h)).2.2)),
          ((carried m c (n + 1) h).2.1 (ix2 r (0 : Fin 1)), (carried m c (n + 1) h).2.2 (ix2 r (0 : Fin 1)), (carried m c (n + 1) h).1 (ix2 r d))
            = Cert.Spec.run (lg m c (row (n + 1) h r)) (yv m c d) ((n + 1) % 32) := by
        intro e
        rw [e]
        dsimp only
        refine (Cert.KernelIdeal.StepAt.step_at (PB m c ⟨n + 1, h⟩) (B4 m c ⟨n + 1, h⟩) _ _ _ r d).trans ?_
        rw [block_logits m c ⟨n + 1, h⟩ r, block_data m c ⟨n + 1, h⟩ d, ih]
        show Cert.Spec.step _ (Cert.Spec.blk (lg m c (row (n + 1) h r)) ((n + 1) % 32)) (Cert.Spec.blk (yv m c d) ((n + 1) % 32)) = _
        rw [hk]
        rfl
      by_cases h1 : (n + 1) % 32 = 31
      · exact hstep (carried_last m c ⟨n + 1, h⟩ h0 h1)
      · exact hstep (carried_middle m c ⟨n + 1, h⟩ h0 h1)

end Cert.KernelIdeal.Invariant

end
-- ==== Proof.Reals.lean ====
/-
  Where the extended reals are in fact reals: the scalar words of the logit, the clipped schedule value
  (strictly between 0 and 1, whatever was clipped), and the logit of finite inputs. And the one regrouping inside the logit.
-/
import proofs.«149353_j90323162235656_2_alg».proof.Proof.Spec

noncomputable section

namespace Cert.Reals

open Idealize.ShloMosaic Idealize.ShloMosaic.ValueIdx Cert.Spec

theorem zero_eq : Ideal.ofBits .f32 0x00000000#32 = (0 : EReal) :=
  Ideal.ofBits_zero_f32

/-- Sign bit set, exponent all ones, significand zero: minus infinity. -/
theorem neg_inf_eq : Ideal.ofBits .f32 0xFF800000#32 = (⊥ : EReal) := by
  simp [Ideal.ofBits, Ideal.ieee]

/-- Exponent 127, significand zero: `2^23 * 2^(127 - 127 - 23) = 1`. -/
theorem one_eq : Cert.Spec.one = ((1 : ℝ) : EReal) := by
  simp [Ideal.ofBits, Ideal.ieee, -EReal.coe_mul]; norm_num

/-- A word whose exponent field is not all ones denotes a real; which real is not needed. -/
theorem two_real : ∃ r : ℝ, Cert.Spec.two = (r : EReal) := by
  simp [Ideal.ofBits, Ideal.ieee, -EReal.coe_mul]

theorem halfD_real : ∃ r : ℝ, Cert.Spec.halfD = (r : EReal) := by
  simp [Ideal.ofBits, Ideal.ieee, -EReal.coe_mul]

theorem half_real : ∃ r : ℝ, Cert.Spec.half = (r : EReal) := by
  simp [Ideal.ofBits, Ideal.ieee, -EReal.coe_mul]

/-- The lower bound: exponent 110, significand 0x27C5AC, so `(2^23 + 2606508) * 2^(110 - 127 - 23) = 10995116 / 2^40`. -/
private theorem lo_eq : Cert.Spec.lo = ((10995116 / 1099511627776 : ℝ) : EReal) := by
  simp [Ideal.ofBits, Ideal.ieee, -EReal.coe_mul]; norm_num

/-- The upper bound: exponent 126, significand 0x7FFF58, so `(2^23 + 8388440) * 2^(126 - 127 - 23) = 16777048 / 2^24`. -/
private theorem hi_eq : Cert.Spec.hi = ((16777048 / 16777216 : ℝ) : EReal) := by
  simp [Ideal.ofBits, Ideal.ieee, -EReal.coe_mul]; norm_num

/-- An extended real between two reals is a real between them. -/
private theorem real_of_between {l h : ℝ} {w : EReal} (hl : (l : EReal) ≤ w) (hh : w ≤ (h : EReal)) :
    ∃ a : ℝ, w = (a : EReal) ∧ l ≤ a ∧ a ≤ h := by
  have htop : w ≠ ⊤ := ne_top_of_le_ne_top (EReal.coe_ne_top h) hh
  have hbot : w ≠ ⊥ := ne_bot_of_le_ne_bot (EReal.coe_ne_bot l) hl
  refine ⟨w.toReal, (EReal.coe_toReal htop hbot).symm, ?_, ?_⟩
  · rw [← EReal.coe_le_coe_iff, EReal.coe_toReal htop hbot]; exact hl
  · rw [← EReal.coe_le_coe_iff, EReal.coe_toReal htop hbot]; exact hh

/-- Clipping any extended real to [lo, hi] gives a real strictly between 0 and 1. -/
theorem clip_real (z : EReal) : ∃ a : ℝ, min Cert.Spec.hi (max Cert.Spec.lo z) = (a : EReal) ∧ 0 < a ∧ a < 1 := by
  rw [lo_eq, hi_eq]
  -- lo ≤ hi, so lo ≤ min hi (max lo z) ≤ hi whatever z is
  have hlh : ((10995116 / 1099511627776 : ℝ) : EReal) ≤ ((16777048 / 16777216 : ℝ) : EReal) := by
    rw [EReal.coe_le_coe_iff]; norm_num
  obtain ⟨a, ha, h1, h2⟩ := real_of_between (le_min hlh (le_max_left _ z)) (min_le_left _ _)
  refine ⟨a, ha, ?_, ?_⟩
  · exact lt_of_lt_of_le (by norm_num) h1
  · exact lt_of_le_of_lt h2 (by norm_num)

/-- Dividing by a nonzero real variance commutes with the factor 1/2; and `0 - x = -x`. -/
theorem logitK_eq_logitR (al sa : EReal) (v : ℝ) (hv : v ≠ 0) (X : Queries) (Y : Data) (b : Fin 256) (n : Fin 16384) :
    logitK al (v : EReal) sa X Y b n = logitR al (v : EReal) sa X Y b n := by
  -- division by the real v ≠ 0 is multiplication by the real 1/v, which moves past the other factor
  have h1 : Ideal.div (half * Cert.Spec.dist al sa X Y b n) (v : EReal)
      = Ideal.div half (v : EReal) * Cert.Spec.dist al sa X Y b n := by
    rw [Ideal.div_coe hv, Ideal.div_coe hv, mul_right_comm]
  unfold logitK logitR
  rw [zero_eq, zero_sub, h1]

/-- A finite sum of coerced reals is the coercion of the real sum. -/
private theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- With real schedule values, a positive variance and real-valued arrays, the logit is a real. -/
theorem logitR_real (al v sa : ℝ) (hv : 0 < v) (X : Queries) (Y : Data)
    (hX : ∀ i, ∃ r : ℝ, X i = (r : EReal)) (hY : ∀ i, ∃ r : ℝ, Y i = (r : EReal)) (b : Fin 256) (n : Fin 16384) :
    ∃ r : ℝ, logitR (al : EReal) (v : EReal) (sa : EReal) X Y b n = (r : EReal) := by
  choose fX hfX using hX
  choose fY hfY using hY
  obtain ⟨t, ht⟩ := two_real
  obtain ⟨hd, hhd⟩ := halfD_real
  obtain ⟨hf, hhf⟩ := half_real
  -- the three sums of products are real sums
  have hxsq : xsq X b = ((∑ k : Fin 3072, fX (ix2 b k) * fX (ix2 b k) : ℝ) : EReal) := by
    unfold xsq
    rw [← coe_sum]
    exact Finset.sum_congr rfl (fun k _ => by rw [hfX, EReal.coe_mul])
  have hysq : ysq Y n = ((∑ k : Fin 3072, fY (ix2 n k) * fY (ix2 n k) : ℝ) : EReal) := by
    unfold ysq
    rw [← coe_sum]
    exact Finset.sum_congr rfl (fun k _ => by rw [hfY, EReal.coe_mul])
  have hxy : xy X Y b n = ((∑ k : Fin 3072, fX (ix2 b k) * fY (ix2 n k) : ℝ) : EReal) := by
    unfold xy
    rw [← coe_sum]
    exact Finset.sum_congr rfl (fun k _ => by rw [hfX, hfY, EReal.coe_mul])
  -- the logarithm of a positive real, and the quotient by it
  have hlog : Ideal.log (v : EReal) = ((Real.log v : ℝ) : EReal) := by
    rw [Ideal.log_coe, if_neg (not_le.mpr hv)]
  have hdiv : Ideal.div half (v : EReal) = ((hf * (1 / v) : ℝ) : EReal) := by
    rw [Ideal.div_coe (ne_of_gt hv), hhf, EReal.coe_mul]
  refine ⟨-(hd * Real.log v + hf * (1 / v)
      * (((∑ k : Fin 3072, fX (ix2 b k) * fX (ix2 b k)) - (t * sa) * (∑ k : Fin 3072, fX (ix2 b k) * fY (ix2 n k)))
          + al * (∑ k : Fin 3072, fY (ix2 n k) * fY (ix2 n k)))), ?_⟩
  unfold logitR Cert.Spec.dist
  rw [hlog, hdiv, hxsq, hxy, hysq, hhd, ht]
  simp only [EReal.coe_mul, EReal.coe_add, EReal.coe_sub, EReal.coe_neg]

end Cert.Reals

end
-- ==== Proof.Online.lean ====
/-
  The running softmax equals the one-pass softmax-weighted sum, for real logits and real data:
  after the last of the 32 blocks, (running weighted sum) / (running normaliser) is `wavg`.

  Route.  For real inputs every intermediate value is a real number.  After blocks `0 .. k` the triple is
    (M, sum_{n < 512 (k+1)} exp (l n - M), sum_{n < 512 (k+1)} exp (l n - M) * y n)
  for some real `M` (the reference point; that it is the maximum is not needed).  The quotient of the last two
  does not depend on `M`: moving the reference point from `M` to `M'` multiplies both sums by `exp (M' - M)`.
  The one-pass value is the same quotient taken at the row maximum, which is again a real number.
-/
import proofs.«149353_j90323162235656_2_alg».proof.Proof.Spec

noncomputable section

namespace Cert.Online

open Idealize.ShloMosaic Cert.Spec

/-- The maximum of two reals, taken among the extended reals. -/
private theorem coe_max' (a b : ℝ) : ((max a b : ℝ) : EReal) = max (a : EReal) (b : EReal) :=
  EReal.coe_strictMono.monotone.map_max

/-- The fold of `max` from `⊥` over a nonempty finite family of reals is a real. -/
private theorem fold_max_coe {ι : Type} (s : Finset ι) (hs : s.Nonempty) (f : ι → ℝ) :
    ∃ M : ℝ, s.fold max ⊥ (fun i => ((f i : ℝ) : EReal)) = (M : EReal) := by
  induction hs using Finset.Nonempty.cons_induction with
  | singleton a => exact ⟨f a, by rw [Finset.fold_singleton, max_bot_right]⟩
  | cons a s ha hs ih =>
    obtain ⟨M, hM⟩ := ih
    exact ⟨max (f a) M, by rw [Finset.fold_cons, hM, coe_max']⟩

/-- A finite sum of reals, taken among the extended reals. -/
private theorem coe_sum' {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Moving the reference point of a block-extended weighted sum of exponentials, in the reals. -/
private theorem real_step (ℓ w : ℕ → ℝ) (N : ℕ) (M M' : ℝ) :
    Real.exp (M - M') * (∑ n ∈ Finset.range N, Real.exp (ℓ n - M) * w n)
        + ∑ c : Fin 512, Real.exp (ℓ (N + c.val) - M') * w (N + c.val)
      = ∑ n ∈ Finset.range (N + 512), Real.exp (ℓ n - M') * w n := by
  rw [Finset.sum_range_add, Finset.sum_range (fun x => Real.exp (ℓ (N + x) - M') * w (N + x)), Finset.mul_sum]
  congr 1
  refine Finset.sum_congr rfl (fun n _ => ?_)
  rw [← mul_assoc, ← Real.exp_add]
  congr 2
  ring

/-- One block applied to a triple of reals gives a triple of reals. -/
private theorem step_coe (M S A : ℝ) (lb yb : Fin 512 → ℝ) :
    ∃ M' : ℝ, step ((M : EReal), (S : EReal), (A : EReal)) (fun c => ((lb c : ℝ) : EReal)) (fun c => ((yb c : ℝ) : EReal))
      = ((M' : EReal), ((Real.exp (M - M') * S + ∑ c : Fin 512, Real.exp (lb c - M') : ℝ) : EReal),
          ((Real.exp (M - M') * A + ∑ c : Fin 512, Real.exp (lb c - M') * yb c : ℝ) : EReal)) := by
  obtain ⟨Mb, hMb⟩ := fold_max_coe (Finset.univ : Finset (Fin 512)) Finset.univ_nonempty lb
  refine ⟨max M Mb, ?_⟩
  simp only [step, hMb, ← coe_max', ← EReal.coe_sub, Ideal.exp_coe, ← EReal.coe_mul, coe_sum', ← EReal.coe_add]

/-- The first block, from (⊥, 0, 0), gives a triple of reals. -/
private theorem step_bot (lb yb : Fin 512 → ℝ) :
    ∃ M' : ℝ, step ((⊥ : EReal), (0 : EReal), (0 : EReal)) (fun c => ((lb c : ℝ) : EReal)) (fun c => ((yb c : ℝ) : EReal))
      = ((M' : EReal), ((∑ c : Fin 512, Real.exp (lb c - M') : ℝ) : EReal),
          ((∑ c : Fin 512, Real.exp (lb c - M') * yb c : ℝ) : EReal)) := by
  obtain ⟨Mb, hMb⟩ := fold_max_coe (Finset.univ : Finset (Fin 512)) Finset.univ_nonempty lb
  refine ⟨Mb, ?_⟩
  simp only [step, hMb, max_bot_left, EReal.bot_sub, Ideal.exp_bot, zero_mul, zero_add, ← EReal.coe_sub,
    Ideal.exp_coe, ← EReal.coe_mul, coe_sum']

/-- The triple after blocks `0 .. k`: a real reference point and the two sums of exponentials taken at it. -/
private theorem run_coe (ℓ y : ℕ → ℝ) (k : ℕ) :
    ∃ M : ℝ, run (fun n => ((ℓ n : ℝ) : EReal)) (fun n => ((y n : ℝ) : EReal)) k
      = ((M : EReal), ((∑ n ∈ Finset.range (512 * (k + 1)), Real.exp (ℓ n - M) : ℝ) : EReal),
          ((∑ n ∈ Finset.range (512 * (k + 1)), Real.exp (ℓ n - M) * y n : ℝ) : EReal)) := by
  induction k with
  | zero =>
    obtain ⟨M', hM'⟩ := step_bot (fun c => ℓ (512 * 0 + c.val)) (fun c => y (512 * 0 + c.val))
    refine ⟨M', ?_⟩
    have h := real_step ℓ y 0 M' M'
    have h1 := real_step ℓ (fun _ => 1) 0 M' M'
    simp only [Finset.range_zero, Finset.sum_empty, mul_zero, zero_add, mul_one] at h h1
    show step (⊥, 0, 0) (fun c => ((ℓ (512 * 0 + c.val) : ℝ) : EReal)) (fun c => ((y (512 * 0 + c.val) : ℝ) : EReal)) = _
    rw [hM']
    simp only [Nat.mul_zero, zero_add, Nat.mul_one, h, h1]
  | succ k ih =>
    obtain ⟨M, hM⟩ := ih
    obtain ⟨M', hM'⟩ := step_coe M (∑ n ∈ Finset.range (512 * (k + 1)), Real.exp (ℓ n - M))
      (∑ n ∈ Finset.range (512 * (k + 1)), Real.exp (ℓ n - M) * y n)
      (fun c => ℓ (512 * (k + 1) + c.val)) (fun c => y (512 * (k + 1) + c.val))
    refine ⟨M', ?_⟩
    have h := real_step ℓ y (512 * (k + 1)) M M'
    have h1 := real_step ℓ (fun _ => 1) (512 * (k + 1)) M M'
    simp only [mul_one] at h1
    have e : 512 * (k + 1 + 1) = 512 * (k + 1) + 512 := by ring
    show step (run _ _ k) (fun c => ((ℓ (512 * (k + 1) + c.val) : ℝ) : EReal))
      (fun c => ((y (512 * (k + 1) + c.val) : ℝ) : EReal)) = _
    rw [hM, hM', h, h1, e]

/-- The quotient of the weighted sum by the normaliser does not depend on the reference point. -/
private theorem real_final (ℓ y : ℕ → ℝ) (N : ℕ) (hN : 0 < N) (M M2 : ℝ) :
    (∑ n ∈ Finset.range N, Real.exp (ℓ n - M) * y n) * (1 / ∑ n ∈ Finset.range N, Real.exp (ℓ n - M))
      = ∑ n ∈ Finset.range N, Real.exp (ℓ n - M2) * (1 / ∑ n' ∈ Finset.range N, Real.exp (ℓ n' - M2)) * y n := by
  have key : ∀ n, Real.exp (ℓ n - M) = Real.exp (M2 - M) * Real.exp (ℓ n - M2) := by
    intro n
    rw [← Real.exp_add]
    congr 1
    ring
  have hS2 : 0 < ∑ n' ∈ Finset.range N, Real.exp (ℓ n' - M2) :=
    Finset.sum_pos (fun i _ => Real.exp_pos _) (Finset.nonempty_range_iff.mpr hN.ne')
  have hc : 0 < Real.exp (M2 - M) := Real.exp_pos _
  calc (∑ n ∈ Finset.range N, Real.exp (ℓ n - M) * y n) * (1 / ∑ n ∈ Finset.range N, Real.exp (ℓ n - M))
      = (Real.exp (M2 - M) * ∑ n ∈ Finset.range N, Real.exp (ℓ n - M2) * y n)
          * (1 / (Real.exp (M2 - M) * ∑ n ∈ Finset.range N, Real.exp (ℓ n - M2))) := by
        simp only [key, mul_assoc, ← Finset.mul_sum]
    _ = (∑ n ∈ Finset.range N, Real.exp (ℓ n - M2) * y n) * (1 / ∑ n ∈ Finset.range N, Real.exp (ℓ n - M2)) := by
        field_simp
    _ = _ := by
        rw [Finset.sum_mul]
        refine Finset.sum_congr rfl (fun n _ => ?_)
        ring

theorem run_div_eq_wavg (ℓ y : ℕ → ℝ) :
    Ideal.div (run (fun n => ((ℓ n : ℝ) : EReal)) (fun n => ((y n : ℝ) : EReal)) 31).2.2
        (run (fun n => ((ℓ n : ℝ) : EReal)) (fun n => ((y n : ℝ) : EReal)) 31).2.1
      = wavg (fun n : Fin 16384 => ((ℓ n.val : ℝ) : EReal)) (fun n : Fin 16384 => ((y n.val : ℝ) : EReal)) := by
  obtain ⟨M, hM⟩ := run_coe ℓ y 31
  obtain ⟨M2, hM2⟩ := fold_max_coe (Finset.univ : Finset (Fin 16384)) Finset.univ_nonempty (fun n => ℓ n.val)
  have e : 512 * (31 + 1) = 16384 := by norm_num
  rw [e] at hM
  have hS : (∑ n ∈ Finset.range 16384, Real.exp (ℓ n - M)) ≠ 0 :=
    (Finset.sum_pos (fun i _ => Real.exp_pos _) (Finset.nonempty_range_iff.mpr (by norm_num))).ne'
  have hS2 : (∑ n : Fin 16384, Real.exp (ℓ n.val - M2)) ≠ 0 :=
    (Finset.sum_pos (fun i _ => Real.exp_pos _) Finset.univ_nonempty).ne'
  have hfin := real_final ℓ y 16384 (by norm_num) M M2
  rw [Finset.sum_range (fun n => Real.exp (ℓ n - M2)),
    Finset.sum_range (fun n => Real.exp (ℓ n - M2) * (1 / ∑ n' : Fin 16384, Real.exp (ℓ n'.val - M2)) * y n)] at hfin
  rw [hM]
  simp only [wavg, rowMax, hM2, ← EReal.coe_sub, Ideal.exp_coe, coe_sum', Ideal.div_coe hS, Ideal.div_coe hS2,
    ← EReal.coe_mul, hfin]

end Cert.Online

end
-- ==== Proof.RefAt.lean ====
/-
  The one-pass program's result read at an index: entry (b, d) of its result array is `Spec.out` of the
  schedule values of row b; and the schedule value is a clipped number, the variance its complement to one,
  the scale its square root.
-/
import proofs.«149353_j90323162235656_2_alg».proof.Proof.Spec
import proofs.«149353_j90323162235656_2_alg».proof.Proof.Gen.ReferenceIdeal.Read

noncomputable section

namespace Cert.RefAt

open Idealize.ShloMosaic Idealize.ShloMosaic.ValueIdx Cert.ReferenceIdeal Cert.ReferenceIdeal.Gen Cert.ReferenceIdeal.Read

/-- Two index functions of a one-axis shape agree when their coordinate agrees. -/
local macro "idx_eq1" : tactic =>
  `(tactic| exact funext fun a => Fin.ext (by match a with | ⟨0, _⟩ => rfl))
/-- Two index functions of a two-axis shape agree when both coordinates agree. -/
local macro "idx_eq2" : tactic =>
  `(tactic| exact funext fun a => Fin.ext (by match a with | ⟨0, _⟩ => rfl | ⟨1, _⟩ => rfl))

theorem alpha_clip (ts : (⟨S256, .i32⟩ : BufTy).Contents (Elt Ideal)) (b : Fin 256) :
    val_main_v15 (F := Ideal) ts (ix1 b) = min Cert.Spec.hi (max Cert.Spec.lo (val_main_v14 (F := Ideal) ts (ix1 b))) := by
  rw [val_main_v15_apply, val_main_call0_v4_apply, val_main_call0_v3_apply, val_main_cst_5_apply,
    val_main_call0_v2_apply, val_main_call0_v1_apply, val_main_call0_v0_apply, val_main_cst_4_apply,
    Ideal.minimumf_def, Ideal.maximumf_def, Ideal.ofBits_def, Ideal.ofBits_def]

theorem var_eq (ts : (⟨S256, .i32⟩ : BufTy).Contents (Elt Ideal)) (b : Fin 256) :
    val_main_v17 (F := Ideal) ts (ix1 b) = Cert.Spec.one - val_main_v15 (F := Ideal) ts (ix1 b) := by
  rw [val_main_v17_apply, val_main_v16_apply, val_main_cst_6_apply, Ideal.subf_def, Ideal.ofBits_def]

theorem sa_eq (ts : (⟨S256, .i32⟩ : BufTy).Contents (Elt Ideal)) (b : Fin 256) :
    val_main_v18 (F := Ideal) ts (ix1 b) = Ideal.sqrt (val_main_v15 (F := Ideal) ts (ix1 b)) := by
  rw [val_main_v18_apply, Ideal.hostUnary_sqrt_def]

section stages

variable (X : (⟨S256x3072, .f32⟩ : BufTy).Contents (Elt Ideal)) (ts : (⟨S256, .i32⟩ : BufTy).Contents (Elt Ideal))
  (Y : (⟨S16384x3072, .f32⟩ : BufTy).Contents (Elt Ideal))

/-- The sum of squares of query row `b`. -/
private theorem xsq_at (b : Fin 256) : val_main_v20 (F := Ideal) X (ix1 b) = Cert.Spec.xsq X b := by
  rw [val_main_v20_apply, val_main_cst_7_apply, Ideal.ofBits_def, Ideal.ofBits_zero_f32, zero_add]
  unfold Cert.Spec.xsq
  refine Finset.sum_congr rfl fun k _ => ?_
  rw [val_main_v19_apply, Ideal.mulf_def, show idx_main_v20 (ix1 b) k = ix2 b k from by idx_eq2]

/-- The sum of squares of data row `n`. -/
private theorem ysq_at (n : Fin 16384) : val_main_v22 (F := Ideal) Y (ix1 n) = Cert.Spec.ysq Y n := by
  rw [val_main_v22_apply, val_main_cst_8_apply, Ideal.ofBits_def, Ideal.ofBits_zero_f32, zero_add]
  unfold Cert.Spec.ysq
  refine Finset.sum_congr rfl fun k _ => ?_
  rw [val_main_v21_apply, Ideal.mulf_def, show idx_main_v22 (ix1 n) k = ix2 n k from by idx_eq2]

/-- The inner product of query row `b` and data row `n`. -/
private theorem xy_at (b : Fin 256) (n : Fin 16384) : val_main_v23 (F := Ideal) X Y (ix2 b n) = Cert.Spec.xy X Y b n := by
  rw [val_main_v23_apply]
  unfold Cert.Spec.xy
  refine Finset.sum_congr rfl fun k _ => ?_
  rw [show lidx_main_v23 (ix2 b n) k = ix2 b k from by idx_eq2, show ridx_main_v23 (ix2 b n) k = ix2 n k from by idx_eq2]

/-- The expanded squared distance at (b, n). -/
private theorem dist_at (b : Fin 256) (n : Fin 16384) :
    val_main_v37 (F := Ideal) X ts Y (ix2 b n)
      = Cert.Spec.dist (val_main_v15 (F := Ideal) ts (ix1 b)) (val_main_v18 (F := Ideal) ts (ix1 b)) X Y b n := by
  rw [val_main_v37_apply, val_main_v31_apply, val_main_v30_apply, val_main_v24_apply, val_main_v29_apply,
    val_main_v28_apply, val_main_v27_apply, val_main_v26_apply, val_main_cst_9_apply, val_main_v25_apply,
    val_main_v36_apply, val_main_v34_apply, val_main_v32_apply, val_main_v35_apply, val_main_v33_apply]
  rw [show idx_main_v24 (idx_main_v30 (ix2 b n)) = ix1 b from by idx_eq1,
    show idx_main_v25 (idx_main_v28 (ix2 b n)) = ix1 b from by idx_eq1,
    show idx_main_v32 (idx_main_v34 (ix2 b n)) = ix1 b from by idx_eq1,
    show idx_main_v33 (idx_main_v35 (ix2 b n)) = ix1 n from by idx_eq1,
    xsq_at, xy_at, ysq_at]
  simp only [Ideal.addf_def, Ideal.subf_def, Ideal.mulf_def, Ideal.ofBits_def]
  rfl

/-- The logit at (b, n). -/
private theorem logit_at (b : Fin 256) (n : Fin 16384) :
    val_main_v49 (F := Ideal) X ts Y (ix2 b n)
      = Cert.Spec.logitR (val_main_v15 (F := Ideal) ts (ix1 b)) (val_main_v17 (F := Ideal) ts (ix1 b))
          (val_main_v18 (F := Ideal) ts (ix1 b)) X Y b n := by
  rw [val_main_v49_apply, val_main_v48_apply, val_main_v47_apply, val_main_v41_apply, val_main_v40_apply,
    val_main_cst_10_apply, val_main_v39_apply, val_main_v38_apply, val_main_v46_apply, val_main_v45_apply,
    val_main_v44_apply, val_main_v43_apply, val_main_cst_11_apply, val_main_v42_apply, dist_at]
  rw [show idx_main_v39 (idx_main_v47 (ix2 b n)) = ix1 b from by idx_eq1,
    show idx_main_v42 (idx_main_v45 (ix2 b n)) = ix1 b from by idx_eq1]
  simp only [Ideal.hostNegf_def, Ideal.negf_def, Ideal.addf_def, Ideal.mulf_def, Ideal.hostDivf_def,
    Ideal.hostUnary_log_def, Ideal.ofBits_def]
  rfl

/-- The word of minus infinity is the least extended real. -/
private theorem negInf_eq_bot : Ideal.ofBits .f32 0xFF800000#32 = (⊥ : EReal) := by
  simp [Ideal.ofBits, Ideal.ieee]

/-- The reduced index `b` with coordinate `k` put back on the second axis is (b, k). -/
private theorem lift_row (h : S256x16384.Reduces [1] S256) (b : Fin 256) (k : Fin (S256x16384.size 1)) :
    h.lift (ix1 b) k = ix2 b (⟨k.val, k.isLt⟩ : Fin 16384) := by
  funext c; apply Fin.ext
  fin_cases c <;> rfl

/-- The largest logit of row `b`. -/
private theorem rowMax_at (b : Fin 256) :
    val_main_v52 (F := Ideal) X ts Y (ix1 b)
      = Cert.Spec.rowMax (fun n => val_main_v49 (F := Ideal) X ts Y (ix2 b n)) := by
  rw [val_main_v52_apply, val_main_v51_apply, val_main_cst_13_apply, Ideal.maximumf_def, Ideal.ofBits_def,
    negInf_eq_bot, max_bot_left]
  unfold val_main_v50
  generalize val_main_v49 (F := Ideal) X ts Y = y
  have h : S256x16384.Reduces [1] S256 := by decide
  refine (Host.reduce_eq_fold_single (FloatOps.maximumf (F := Ideal) (φ := .f32)) (y : S256x16384.Idx → EReal)
    (val_main_cst_12 (F := Ideal)) reducesTo_S256x16384_S256_d1 h h_S_ (ix1 b)).trans ?_
  rw [val_main_cst_12_apply, Ideal.ofBits_def, negInf_eq_bot]
  have hf : (y ∘ h.lift (ix1 b)) = fun k : Fin 16384 => y (ix2 b k) :=
    funext fun k => congrArg y (lift_row h b k)
  exact congrArg (fun f => Finset.fold max (⊥ : EReal) f (Finset.univ : Finset (Fin 16384))) hf

/-- The exponential of the shifted logit at (b, n). -/
private theorem expd_at (b : Fin 256) (n : Fin 16384) :
    val_main_v56 (F := Ideal) X ts Y (ix2 b n)
      = Ideal.exp (val_main_v49 (F := Ideal) X ts Y (ix2 b n) - val_main_v52 (F := Ideal) X ts Y (ix1 b)) := by
  rw [val_main_v56_apply, val_main_v55_apply, val_main_v54_apply, val_main_v53_apply, Ideal.hostUnary_exp_def,
    Ideal.subf_def, show idx_main_v53 (idx_main_v54 (ix2 b n)) = ix1 b from by idx_eq1]

/-- The normaliser of row `b`. -/
private theorem norm_at (b : Fin 256) :
    val_main_v57 (F := Ideal) X ts Y (ix1 b)
      = ∑ n : Fin 16384, Ideal.exp (val_main_v49 (F := Ideal) X ts Y (ix2 b n) - val_main_v52 (F := Ideal) X ts Y (ix1 b)) := by
  rw [val_main_v57_apply, val_main_cst_14_apply, Ideal.ofBits_def, Ideal.ofBits_zero_f32, zero_add]
  refine Finset.sum_congr rfl fun k _ => ?_
  rw [show idx_main_v57 (ix1 b) k = ix2 b k from by idx_eq2, expd_at]

/-- The softmax weight at (b, n). -/
private theorem prob_at (b : Fin 256) (n : Fin 16384) :
    val_main_v60 (F := Ideal) X ts Y (ix2 b n)
      = Ideal.div (val_main_v56 (F := Ideal) X ts Y (ix2 b n)) (val_main_v57 (F := Ideal) X ts Y (ix1 b)) := by
  rw [val_main_v60_apply, val_main_v59_apply, val_main_v58_apply, Ideal.hostDivf_def,
    show idx_main_v58 (idx_main_v59 (ix2 b n)) = ix1 b from by idx_eq1]

/-- The weighted sum of the data's feature `d` for row `b`. -/
private theorem wsum_at (b : Fin 256) (d : Fin 3072) :
    val_main_v61 (F := Ideal) X ts Y (ix2 b d)
      = ∑ n : Fin 16384, val_main_v60 (F := Ideal) X ts Y (ix2 b n) * Y (ix2 n d) := by
  rw [val_main_v61_apply]
  refine Finset.sum_congr rfl fun k _ => ?_
  rw [show lidx_main_v61 (ix2 b d) k = ix2 b k from by idx_eq2, show ridx_main_v61 (ix2 b d) k = ix2 k d from by idx_eq2]

end stages

theorem ref_at (X : (⟨S256x3072, .f32⟩ : BufTy).Contents (Elt Ideal)) (ts : (⟨S256, .i32⟩ : BufTy).Contents (Elt Ideal))
    (Y : (⟨S16384x3072, .f32⟩ : BufTy).Contents (Elt Ideal)) (b : Fin 256) (d : Fin 3072) :
    val_main_v69 (F := Ideal) X ts Y (ix2 b d)
      = Cert.Spec.out (val_main_v15 (F := Ideal) ts (ix1 b)) (val_main_v17 (F := Ideal) ts (ix1 b))
          (val_main_v18 (F := Ideal) ts (ix1 b)) X Y b d := by
  rw [val_main_v69_apply, val_main_v65_apply, val_main_v64_apply, val_main_v63_apply, val_main_v62_apply,
    val_main_v68_apply, val_main_v67_apply, val_main_v66_apply, wsum_at,
    show idx_main_v62 (idx_main_v63 (ix2 b d)) = ix1 b from by idx_eq1,
    show idx_main_v67 (idx_main_v68 (ix2 b d)) = ix1 b from by idx_eq1]
  simp only [Ideal.hostDivf_def, Ideal.subf_def, Ideal.mulf_def, Ideal.hostUnary_sqrt_def]
  unfold Cert.Spec.out Cert.Spec.wavg
  simp only [prob_at, expd_at, norm_at, rowMax_at, logit_at]

end Cert.RefAt

end
-- ==== Proof.RowFinal.lean ====
/-
  The conclusion for one entry (b, d). With finite inputs the schedule value of row b is a real strictly
  between 0 and 1, so the variance is a positive real, every logit of the row is a real and its two groupings
  agree; the running softmax over the 32 blocks then ends at the one-pass softmax-weighted sum, and the final
  scaling turns it into the one-pass program's entry.
-/
import proofs.«149353_j90323162235656_2_alg».proof.Proof.Spec
import proofs.«149353_j90323162235656_2_alg».proof.Proof.Rows
import proofs.«149353_j90323162235656_2_alg».proof.Proof.Reals
import proofs.«149353_j90323162235656_2_alg».proof.Proof.Online
import proofs.«149353_j90323162235656_2_alg».proof.Proof.RefAt

noncomputable section

namespace Cert.RowFinal

open Idealize.ShloMosaic Idealize.ShloMosaic.ValueIdx Cert.Spec Cert.Rows
open Cert.ReferenceIdeal Cert.ReferenceIdeal.Gen Cert.ReferenceIdeal.Read

/-- (running weighted sum) / (running normaliser) after the last block is the one-pass softmax-weighted sum. -/
theorem row_final (X : (⟨S256x3072, .f32⟩ : BufTy).Contents (Elt Ideal)) (ts : (⟨S256, .i32⟩ : BufTy).Contents (Elt Ideal))
    (Y : (⟨S16384x3072, .f32⟩ : BufTy).Contents (Elt Ideal))
    (hX : ∀ i, ∃ r : ℝ, X i = (r : EReal)) (hY : ∀ i, ∃ r : ℝ, Y i = (r : EReal)) (b : Fin 256) (d : Fin 3072) :
    Ideal.div
        (run (lgN (val_main_v15 (F := Ideal) ts (ix1 b)) (val_main_v17 (F := Ideal) ts (ix1 b)) (val_main_v18 (F := Ideal) ts (ix1 b)) X Y b) (yN Y d) 31).2.2
        (run (lgN (val_main_v15 (F := Ideal) ts (ix1 b)) (val_main_v17 (F := Ideal) ts (ix1 b)) (val_main_v18 (F := Ideal) ts (ix1 b)) X Y b) (yN Y d) 31).2.1
      = wavg (fun n => logitR (val_main_v15 (F := Ideal) ts (ix1 b)) (val_main_v17 (F := Ideal) ts (ix1 b)) (val_main_v18 (F := Ideal) ts (ix1 b)) X Y b n)
          (fun n => Y (ix2 n d)) := by
  obtain ⟨a, ha, ha0, ha1⟩ := Cert.Reals.clip_real (val_main_v14 (F := Ideal) ts (ix1 b))
  have hal : val_main_v15 (F := Ideal) ts (ix1 b) = (a : EReal) := (Cert.RefAt.alpha_clip ts b).trans ha
  have hv : val_main_v17 (F := Ideal) ts (ix1 b) = ((1 - a : ℝ) : EReal) := by
    rw [Cert.RefAt.var_eq, hal, Cert.Reals.one_eq, ← EReal.coe_sub]
  have hs : val_main_v18 (F := Ideal) ts (ix1 b) = ((Real.sqrt a : ℝ) : EReal) := by
    rw [Cert.RefAt.sa_eq, hal, Ideal.sqrt_coe, if_neg (not_lt.mpr ha0.le)]
  rw [hal, hv, hs]
  have hv0 : 0 < 1 - a := sub_pos.mpr ha1
  -- every logit of the row, and every data value of the feature, is a real
  choose ℓ hℓ using fun n : Fin 16384 => Cert.Reals.logitR_real a (1 - a) (Real.sqrt a) hv0 X Y hX hY b n
  choose y hy using fun n : Fin 16384 => hY (ix2 n d)
  -- the two sequences over the natural numbers are coerced real sequences
  have hlg : lgN (a : EReal) ((1 - a : ℝ) : EReal) ((Real.sqrt a : ℝ) : EReal) X Y b
      = fun n => (((if h : n < 16384 then ℓ ⟨n, h⟩ else 0 : ℝ)) : EReal) := by
    funext n
    by_cases h : n < 16384
    · simp only [Rows.lgN, dif_pos h]
      rw [Cert.Reals.logitK_eq_logitR _ _ _ hv0.ne', hℓ]
    · simp only [Rows.lgN, dif_neg h, EReal.coe_zero]
  have hyN : yN Y d = fun n => (((if h : n < 16384 then y ⟨n, h⟩ else 0 : ℝ)) : EReal) := by
    funext n
    by_cases h : n < 16384
    · simp only [Rows.yN, dif_pos h]
      exact hy ⟨n, h⟩
    · simp only [Rows.yN, dif_neg h, EReal.coe_zero]
  rw [hlg, hyN]
  refine (Cert.Online.run_div_eq_wavg (fun n => if h : n < 16384 then ℓ ⟨n, h⟩ else 0)
    (fun n => if h : n < 16384 then y ⟨n, h⟩ else 0)).trans ?_
  congr 1
  · funext n
    rw [dif_pos n.isLt]
    exact (hℓ n).symm
  · funext n
    rw [dif_pos n.isLt]
    exact (hy n).symm

/-- The blockwise program's final scaling of that quotient is the one-pass program's entry (b, d). -/
theorem out_final (X : (⟨S256x3072, .f32⟩ : BufTy).Contents (Elt Ideal)) (ts : (⟨S256, .i32⟩ : BufTy).Contents (Elt Ideal))
    (Y : (⟨S16384x3072, .f32⟩ : BufTy).Contents (Elt Ideal))
    (hX : ∀ i, ∃ r : ℝ, X i = (r : EReal)) (hY : ∀ i, ∃ r : ℝ, Y i = (r : EReal)) (b : Fin 256) (d : Fin 3072) :
    Ideal.div (X (ix2 b d) - val_main_v18 (F := Ideal) ts (ix1 b) * Ideal.div
        (run (lgN (val_main_v15 (F := Ideal) ts (ix1 b)) (val_main_v17 (F := Ideal) ts (ix1 b)) (val_main_v18 (F := Ideal) ts (ix1 b)) X Y b) (yN Y d) 31).2.2
        (run (lgN (val_main_v15 (F := Ideal) ts (ix1 b)) (val_main_v17 (F := Ideal) ts (ix1 b)) (val_main_v18 (F := Ideal) ts (ix1 b)) X Y b) (yN Y d) 31).2.1)
        (Ideal.sqrt (val_main_v17 (F := Ideal) ts (ix1 b)))
      = val_main_v69 (F := Ideal) X ts Y (ix2 b d) := by
  rw [row_final X ts Y hX hY b d, Cert.RefAt.ref_at]
  rfl

end Cert.RowFinal

end
-- ==== Proof.OutAt.lean ====
/-
  At the last data block of a row block the output block holds the one-pass program's entries of those rows:
  the body stores (x - sa * (weighted sum / normaliser)) / sqrt(var) of the triple it has just updated, the
  triple is the running softmax after all 32 blocks, and for finite inputs that quotient is the one-pass
  softmax-weighted sum.
-/
import proofs.«149353_j90323162235656_2_alg».proof.Proof.Invariant
import proofs.«149353_j90323162235656_2_alg».proof.Proof.RowFinal
import proofs.«149353_j90323162235656_2_alg».proof.Proof.PaySoftmax

set_option maxRecDepth 16384

noncomputable section

namespace Cert.KernelIdeal.Invariant

open Idealize.ShloMosaic Idealize.ShloMosaic.TcCoe Idealize.ShloMosaic.ValueIdx Idealize.SL.Sem
open Cert.KernelIdeal Cert.KernelIdeal.Gen Cert.KernelIdeal.Cases

variable (m : (ℓ : Loc nD τ sig) → Buf (Elt Ideal) ℓ)

theorem out_at (c : Dev nD) (t : Fin cfg0.N) (h31 : t.val % 32 = 31)
    (hX : ∀ i, ∃ r : ℝ, X m c i = (r : EReal)) (hY : ∀ i, ∃ r : ℝ, Y m c i = (r : EReal)) (r : Fin 128) (d : Fin 3072) :
    ((outsAt0 m c t.val t.isLt).1 : Vec Ideal S128x3072 .f32) (ix2 r d)
      = Cert.ReferenceIdeal.Read.val_main_v69 (F := Ideal) (X m c) (TS m c) (Y m c) (ix2 (row t.val t.isLt r) d) := by
  have h0 : ¬t.val % 32 = 0 := by omega
  have hN' := hN
  have hb : 128 * (t.val / 32) + r.val < 256 := by
    have := t.isLt
    have := r.isLt
    omega
  -- the triple after the last block is the running softmax after all 32 blocks
  have htr := triple_eq m c t.val t.isLt r d
  rw [h31] at htr
  unfold triple at htr
  have hl : (carried m c t.val t.isLt).2.2 (ix2 r (0 : Fin 1))
      = (Cert.Spec.run (lg m c (row t.val t.isLt r)) (yv m c d) 31).2.1 := congrArg (fun s => s.2.1) htr
  have ha : (carried m c t.val t.isLt).1 (ix2 r d)
      = (Cert.Spec.run (lg m c (row t.val t.isLt r)) (yv m c d) 31).2.2 := congrArg (fun s => s.2.2) htr
  -- the stored entry: (x - sa * (weighted sum / normaliser)) / sqrt(var)
  show outBlock m c t.val t.isLt (ix2 r d) = _
  rw [out_last m c t h0 h31]
  refine (Cert.KernelIdeal.PaySoftmax.pay8_at (carried m c t.val t.isLt).1 (carried m c t.val t.isLt).2.2
    (B3 m c t) (B2 m c t) (B1 m c t) r d).trans ?_
  rw [ha, hl, B3_at m c t r d hb, B2_at m c t r 0 hb, B1_at m c t r 0 hb, Cert.KernelIdeal.HostGlue.V_sqrt_alpha,
    Cert.KernelIdeal.HostGlue.V_var]
  exact Cert.RowFinal.out_final (X m c) (TS m c) (Y m c) hX hY (row t.val t.isLt r) d

end Cert.KernelIdeal.Invariant

end
-- ==== Proof.Finite.lean ====
/-
  The finiteness precondition says of each float array that |x| < +inf holds at every index; on the
  extended reals that leaves exactly the reals.
-/
import Idealize.ShloMosaic.PureOps.Ideal.Laws
import Idealize.ShloMosaic.Lib.ValueIdx
import Idealize.ShloMosaic.Lib.ReduceAll
import proofs.«149353_j90323162235656_2_alg».proof.Pre_finite_inputs

noncomputable section

namespace Cert.Finite

open Idealize.ShloMosaic Idealize.ShloMosaic.ValueIdx

/-- A rank-0 result has a single index. -/
private instance : Subsingleton Cert.Pre_finite_inputs.S_.Idx := ⟨fun a b => funext fun d => d.elim0⟩

/-- On the extended reals, `max x (-x) < ⊤` holds only at a real: both infinities have `max x (-x) = ⊤`. -/
private theorem real_of_abs_lt_top (x : EReal) (hx : max x (-x) < ⊤) : ∃ r : ℝ, x = (r : EReal) := by
  induction x using EReal.rec with
  | bot => simp at hx
  | coe r => exact ⟨r, rfl⟩
  | top => simp at hx

/-- The element comparison `|x| < +inf` being the word 1 says `x` is a real. -/
private theorem real_of_cmp (x : Ideal .f32)
    (hx : FloatOps.cmpf .olt (FloatOps.hostAbsf x) (FloatOps.ofBits (F := Ideal) .f32 0x7F800000#32) = 1#1) :
    ∃ r : ℝ, x = (r : EReal) := by
  apply real_of_abs_lt_top
  have htop : Ideal.ofBits .f32 0x7F800000#32 = ⊤ := by simp [Ideal.ofBits, Ideal.ieee]
  rw [Ideal.ofBits_def, htop, Ideal.hostAbsf_def, Ideal.cmpf_def, Ideal.absf_def] at hx
  simp only [Ideal.cmp] at hx
  by_contra hc
  simp [hc] at hx

/-- Under the finiteness precondition every entry of both float arrays is a real. -/
theorem reals_of_pre [Cert.Pre_finite_inputs.Facts] (X : FVec Ideal Cert.Pre_finite_inputs.S256x3072 .f32)
    (ts : IVec Cert.Pre_finite_inputs.S256 32) (Y : FVec Ideal Cert.Pre_finite_inputs.S16384x3072 .f32)
    (h : Cert.Pre_finite_inputs.fn (F := Ideal) X ts Y = fun _ => 1#1) :
    (∀ i, ∃ r : ℝ, X i = (r : EReal)) ∧ (∀ i, ∃ r : ℝ, Y i = (r : EReal)) := by
  have h0 := congrFun h ValueIdx.ix0
  dsimp only [Cert.Pre_finite_inputs.fn, andi] at h0
  obtain ⟨hX, hY⟩ := IntOp.andi_eq_one.1 h0
  refine ⟨fun i => ?_, fun i => ?_⟩
  · exact real_of_cmp (X i) (Host.reduce_andi_all _ _ _ _ _ hX i)
  · exact real_of_cmp (Y i) (Host.reduce_andi_all _ _ _ _ _ hY i)

end Cert.Finite

end
-- ==== Proof.KernelValue.lean ====
/-
  From blocks to the array. The output window is written back only at the last data block of each row block
  (points 31 and 63), where its block holds the one-pass program's entries of rows 128 (t / 32) .. ; the two
  written blocks tile the 256 rows, so after the run the whole result array is the one-pass program's result
  term of the same arguments.
-/
import proofs.«149353_j90323162235656_2_alg».proof.Defs
import proofs.«149353_j90323162235656_2_alg».proof.Proof.Gen.KernelIdeal.Value
import proofs.«149353_j90323162235656_2_alg».proof.Proof.Gen.Pre_finite_inputs
import proofs.«149353_j90323162235656_2_alg».proof.Proof.OutAt
import proofs.«149353_j90323162235656_2_alg».proof.Proof.Finite

set_option maxRecDepth 16384

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Invariant

variable (m : (ℓ : Loc nD τ sig) → Buf (Elt Ideal) ℓ) (ρ : Dev nD → PrngReg)

/-- The whole result array: the one-pass program's result term of the three argument arrays. -/
abbrev result (c : Dev nD) : Buf (Elt Ideal) ((c.tc : Thread nD τ).loc main_v22) :=
  Cert.ReferenceIdeal.Read.val_main_v69 (F := Ideal) (X m c) (TS m c) (Y m c)

/-- The output window's block index at point `t` is (t / 32, 0), decided once over the grid. -/
theorem idx5 : ∀ t : Fin cfg0.N, win0_5.index t (0 : Fin 2) = t.val / 32 ∧ win0_5.index t (1 : Fin 2) = 0 :=
  (by decide +kernel : ∀ t : Fin grid0.N, _)

/-- What a writing point writes back is its block of `result`: at such a point (t % 32 = 31) the block's entry
    (r, d) is the result's entry at row 128 (t / 32) + r, and that is where the block sits in the array. -/
theorem flushed_eq (c : Dev nD) (hX : ∀ i, ∃ r : ℝ, X m c i = (r : EReal)) (hY : ∀ i, ∃ r : ℝ, Y m c i = (r : EReal))
    (t : Fin cfg0.N) (hf : (cfg0.win 5).flush t = true) :
    (dats m 0 c).flushed 5 t = ((cfg0.win 5).blk t).view.read (Elt Ideal) (result m c) := by
  have h31 : t.val % 32 = 31 := (flush0_5 t).mp hf
  obtain ⟨e0, e1⟩ := idx5 t
  rw [Cert.KernelIdeal.Value.flushed5]
  show (((cfg0.win 5).cut (grid0.coords t) ((outsAt0 m c t.val t.isLt).1)) : S128x3072.Idx → EReal)
    = (((cfg0.win 5).blk t).view.read (Elt Ideal) (result m c) : S128x3072.Idx → EReal)
  funext j
  obtain ⟨r, d, rfl⟩ : ∃ (r : Fin 128) (d : Fin 3072), j = ix2 r d := ⟨j 0, j 1, eq_ix2 j⟩
  rw [View.read_apply]
  show ((outsAt0 m c t.val t.isLt).1 : Vec Ideal S128x3072 .f32) (ix2 r d) = result m c _
  rw [out_at m c t h31 hX hY r d]
  show result m c _ = result m c _
  congr 1
  funext a
  apply Fin.ext
  match a with
  | ⟨0, _⟩ => show 128 * (t.val / 32) + r.val = win0_5.index t 0 * 128 + 1 * r.val; rw [e0]; omega
  | ⟨1, _⟩ => show d.val = win0_5.index t 1 * 3072 + 1 * d.val; rw [e1]; omega

/-- An index of the array is in point `t`'s block iff each coordinate is in the block's range on its axis. -/
theorem mem_blk (t : Fin cfg0.N) (i : S256x3072.Idx) :
    i ∈ ((cfg0.win 5).blk t).view.set ↔ ∀ a : Fin 2, win0_5.index t a * S128x3072.size a ≤ (i a).val
      ∧ (i a).val < win0_5.index t a * S128x3072.size a + S128x3072.size a := by
  show i ∈ ((View.whole main_v22).slice (win0_5.rect t)).set ↔ _
  rw [View.set_slice_whole, Rect.mem_set_unit]
  exact Iff.rfl

/-- Every index of the array is in a writing point's block: row i lies in row block i / 128, which point
    32 (i / 128) + 31 writes back. -/
theorem cover (i : S256x3072.Idx) :
    ∃ t : Fin cfg0.N, (cfg0.win 5).flush t = true ∧ i ∈ ((cfg0.win 5).blk t).view.set := by
  have hN' := hN
  have hi0 : (i 0).val < 256 := (i 0).isLt
  have hi1 : (i 1).val < 3072 := (i 1).isLt
  have hlt : 32 * ((i 0).val / 128) + 31 < cfg0.N := by omega
  obtain ⟨e0, e1⟩ := idx5 ⟨32 * ((i 0).val / 128) + 31, hlt⟩
  refine ⟨⟨32 * ((i 0).val / 128) + 31, hlt⟩, ?_, ?_⟩
  · rw [flush0_5]
    show (32 * ((i 0).val / 128) + 31) % 32 = 31
    omega
  · rw [mem_blk]
    intro a
    match a with
    | ⟨0, _⟩ =>
      show win0_5.index _ (0 : Fin 2) * 128 ≤ (i 0).val ∧ (i 0).val < win0_5.index _ (0 : Fin 2) * 128 + 128
      rw [e0]
      show (32 * ((i 0).val / 128) + 31) / 32 * 128 ≤ (i 0).val ∧ (i 0).val < (32 * ((i 0).val / 128) + 31) / 32 * 128 + 128
      omega
    | ⟨1, _⟩ =>
      show win0_5.index _ (1 : Fin 2) * 3072 ≤ (i 1).val ∧ (i 1).val < win0_5.index _ (1 : Fin 2) * 3072 + 3072
      rw [e1]
      omega

/-- So after the run the result array holds `result`. -/
theorem final (c : Dev nD) (hX : ∀ i, ∃ r : ℝ, X m c i = (r : EReal)) (hY : ∀ i, ∃ r : ℝ, Y m c i = (r : EReal)) :
    (dats m 0 c).arrAt 5 cfg0.N = result m c :=
  (dats m 0 c).arrAt_eq_of_cover 5 (result m c) (flushed_eq m c hX hY) cover

/-- The run of the blockwise program under the finiteness precondition: the result array ends at `result`,
    the arguments unchanged. -/
theorem run (hpre : Cert.Pre_KernelIdeal (hPre_finite_inputs := Cert.Pre_finite_inputs.Gen.facts) m) :
    θ_run (defs (F := Ideal)) (onTc (τ := τ) (main (F := Ideal))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hfin : ∀ c : Dev nD, (∀ i, ∃ r : ℝ, X m c i = (r : EReal)) ∧ (∀ i, ∃ r : ℝ, Y m c i = (r : EReal)) := fun c =>
    @Cert.Finite.reals_of_pre Cert.Pre_finite_inputs.Gen.facts (X m c) (TS m c) (Y m c) (hpre c)
  exact (θ_run defs _ _).mono (fun r h c => ⟨(h c).1.trans (final m c (hfin c).1 (hfin c).2), (h c).2⟩)
    (Cert.KernelIdeal.Value.run_blocks m ρ)

end Cert.KernelIdeal.KernelValue

end
-- ==== Proof.lean ====
/-
  The blockwise running-softmax program and the one-pass program compute the same array: for finite inputs, at the
  ideal instance (floats extended reals, operations exact), both run and end with equal results, element by element,
  and unchanged arguments. The three frames are the generated ones; the idealization rewrote no operation, so there is
  nothing to preserve beyond the program's own text read at the ideal instance.
-/
import proofs.«149353_j90323162235656_2_alg».proof.Defs
import proofs.«149353_j90323162235656_2_alg».proof.Proof.Gen.Kernel
import proofs.«149353_j90323162235656_2_alg».proof.Proof.Gen.Kernel.Skeleton
import proofs.«149353_j90323162235656_2_alg».proof.Proof.Gen.Kernel.Launch
import proofs.«149353_j90323162235656_2_alg».proof.Proof.Gen.Kernel.Points
import proofs.«149353_j90323162235656_2_alg».proof.Proof.Gen.Kernel.Frame
import proofs.«149353_j90323162235656_2_alg».proof.Proof.Gen.KernelIdeal
import proofs.«149353_j90323162235656_2_alg».proof.Proof.Gen.KernelIdeal.Skeleton
import proofs.«149353_j90323162235656_2_alg».proof.Proof.Gen.KernelIdeal.Launch
import proofs.«149353_j90323162235656_2_alg».proof.Proof.Gen.KernelIdeal.Points
import proofs.«149353_j90323162235656_2_alg».proof.Proof.Gen.KernelIdeal.Frame
import proofs.«149353_j90323162235656_2_alg».proof.Proof.Gen.ReferenceIdeal
import proofs.«149353_j90323162235656_2_alg».proof.Proof.Gen.KernelIdeal.Value
import proofs.«149353_j90323162235656_2_alg».proof.Proof.Gen.ReferenceIdeal.Run
import proofs.«149353_j90323162235656_2_alg».proof.Proof.Gen.ReferenceIdeal.Read
import proofs.«149353_j90323162235656_2_alg».proof.Proof.Gen.Pre_finite_inputs
import Idealize.ShloMosaic.Adequacy
import Idealize.ShloMosaic.Init
import proofs.«149353_j90323162235656_2_alg».proof.Proof.KernelValue

noncomputable section

namespace Cert.Proof

open Idealize.ShloMosaic Idealize.SL.Sem Cert.Kernel

/-- The word-level blockwise program runs and its argument arrays end unchanged. -/
theorem frame_kernel :
    Cert.frame_Kernel (hKernel := Cert.Kernel.Gen.facts) (hPre_finite_inputs := Cert.Pre_finite_inputs.Gen.facts) :=
  fun m ρ _ => Cert.Kernel.Gen.frame m ρ

/-- The blockwise program at the ideal instance runs and its argument arrays end unchanged. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The one-pass program at the ideal instance runs and its argument arrays end unchanged: its run with the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- No operation was rewritten between the word-level program and its ideal reading. -/
theorem preserves : Cert.preserves_Kernel_KernelIdeal := trivial

/-- For finite inputs the blockwise program's result array is the one-pass program's result term of the same three
    arguments; the one-pass program's run ends at that term of its own arguments, which agree with the other's. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.KernelValue.result m c, Cert.KernelIdeal.KernelValue.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq m' c, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
